-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2 : Shape := ⟨3, ![2, 2048, 2]⟩
abbrev S2x2048x2048 : Shape := ⟨3, ![2, 2048, 2048]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2x2048x2 : S_.BroadcastsInDim S2x2048x2 (![] : Fin 0 → Fin S2x2048x2.rank)
  reducesTo_S2x2048x2_S_d0_1_2 : S2x2048x2.ReducesTo [0, 1, 2] S_
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn_part1 {F : FTy → Type} [FloatOps F] (main_arg5 : FVec F S8x2048x4096 .f32) (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  let main_v19 : FVec F S8x2048x4096 .f32 := Host.absf main_arg5
  let main_cst_6 : FVec F S_ .f32 := constant S_ .f32 0x7F800000#32
  let main_v20 : FVec F S8x2048x4096 .f32 := broadcastInDim S8x2048x4096 ![] bcast_S_S8x2048x4096 main_cst_6
  let main_v21 : IVec S8x2048x4096 1 := cmpf .olt main_v19 main_v20
  let main_c_7 : IVec S_ 1 := constantI S_ 1 1#1
  let main_v22 : IVec S_ 1 := (fun x v => Host.reduce IntOp.andi x v reducesTo_S8x2048x4096_S_d0_1_2 h_S_) main_v21 main_c_7
  let main_v23 : IVec S_ 1 := andi main_v18 main_v22
  main_v23

def fn {F : FTy → Type} [FloatOps F] (main_arg0 : IVec S2x2048x2 32) (main_arg1 : FVec F S2x2048x2048 .f32) (main_arg2 : FVec F S2x2048x2 .f32) (main_arg3 : FVec F S8x2048x4096 .f32) (main_arg4 : FVec F S8x4096x2048 .f32) (main_arg5 : FVec F S8x2048x4096 .f32) : IVec S_ 1 :=
  let main_v0 : FVec F S2x2048x2048 .f32 := Host.absf main_arg1
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2x2048x2 .f32 := Host.absf main_arg2
  let main_cst_0 : FVec F S_ .f32 := constant S_ .f32 0x7F800000#32
  let main_v5 : FVec F S2x2048x2 .f32 := broadcastInDim S2x2048x2 ![] bcast_S_S2x2048x2 main_cst_0
  let main_v6 : IVec S2x2048x2 1 := cmpf .olt main_v4 main_v5
  let main_c_1 : IVec S_ 1 := constantI S_ 1 1#1
  let main_v7 : IVec S_ 1 := (fun x v => Host.reduce IntOp.andi x v reducesTo_S2x2048x2_S_d0_1_2 h_S_) main_v6 main_c_1
  let main_v8 : IVec S_ 1 := andi main_v3 main_v7
  let main_v9 : FVec F S8x2048x4096 .f32 := Host.absf main_arg3
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg4
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_arg5 main_v13 main_v16
-- ==== Kernel.lean ====
abbrev S2x2048x2 : Shape := ⟨3, ![2, 2048, 2]⟩
abbrev S2x2048x2048 : Shape := ⟨3, ![2, 2048, 2048]⟩
abbrev S8x2048x4096 : Shape := ⟨3, ![8, 2048, 4096]⟩
abbrev S8x4096x2048 : Shape := ⟨3, ![8, 4096, 2048]⟩
abbrev S4096x2 : Shape := ⟨2, ![4096, 2]⟩
abbrev S8 : Shape := ⟨1, ![8]⟩
abbrev S1x4096x2 : Shape := ⟨3, ![1, 4096, 2]⟩
abbrev S8x1x1 : Shape := ⟨3, ![8, 1, 1]⟩
abbrev S8x4096x2 : Shape := ⟨3, ![8, 4096, 2]⟩
abbrev S_ : Shape := ⟨0, ![]⟩
abbrev S8x4096 : Shape := ⟨2, ![8, 4096]⟩
abbrev S8x4096x1 : Shape := ⟨3, ![8, 4096, 1]⟩
abbrev S4096x2048 : Shape := ⟨2, ![4096, 2048]⟩
abbrev S1x512x1 : Shape := ⟨3, ![1, 512, 1]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩
abbrev S512x1 : Shape := ⟨2, ![512, 1]⟩

abbrev nBuf : Space → Nat
  | .hbm => 28
  | .vmem => 12
  | .smem => 0
  | _ => 0

abbrev bufTy : (tb : Table) → Fin (tcTables nBuf tb) → BufTy
  | .hbm, ⟨0, _⟩ => ⟨S2x2048x2, .i32⟩
  | .hbm, ⟨1, _⟩ => ⟨S2x2048x2048, .f32⟩
  | .hbm, ⟨2, _⟩ => ⟨S2x2048x2, .f32⟩
  | .hbm, ⟨3, _⟩ => ⟨S8x2048x4096, .f32⟩
  | .hbm, ⟨4, _⟩ => ⟨S8x4096x2048, .f32⟩
  | .hbm, ⟨5, _⟩ => ⟨S8x2048x4096, .f32⟩
  | .hbm, ⟨6, _⟩ => ⟨S4096x2, .i32⟩
  | .hbm, ⟨7, _⟩ => ⟨S4096x2, .f32⟩
  | .hbm, ⟨8, _⟩ => ⟨S8, .i32⟩
  | .hbm, ⟨9, _⟩ => ⟨S1x4096x2, .i32⟩
  | .hbm, ⟨10, _⟩ => ⟨S8x1x1, .i32⟩
  | .hbm, ⟨11, _⟩ => ⟨S8x4096x2, .i32⟩
  | .hbm, ⟨12, _⟩ => ⟨S8x4096x2, .i32⟩
  | .hbm, ⟨13, _⟩ => ⟨S8x4096x2, .i1⟩
  | .hbm, ⟨14, _⟩ => ⟨S8x4096x2, .f32⟩
  | .hbm, ⟨15, _⟩ => ⟨S1x4096x2, .f32⟩
  | .hbm, ⟨16, _⟩ => ⟨S8x4096x2, .f32⟩
  | .hbm, ⟨17, _⟩ => ⟨S8x4096x2, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S4096x2048, .f32⟩
  | .hbm, ⟨22, _⟩ => ⟨S4096x2048, .bf16⟩
  | .hbm, ⟨23, _⟩ => ⟨S8x2048x4096, .bf16⟩
  | .hbm, ⟨24, _⟩ => ⟨S8x4096x2048, .bf16⟩
  | .hbm, ⟨25, _⟩ => ⟨S8x2048x4096, .bf16⟩
  | .hbm, ⟨26, _⟩ => ⟨S4096x2048, .f32⟩
  | .hbm, ⟨27, _⟩ => ⟨S2x2048x2048, .f32⟩
  | .local _ .vmem, ⟨0, _⟩ => ⟨S1x512x1, .f32⟩
  | .local _ .vmem, ⟨1, _⟩ => ⟨S1x512x1, .f32⟩
  | .local _ .vmem, ⟨2, _⟩ => ⟨S512x2048, .bf16⟩
  | .local _ .vmem, ⟨3, _⟩ => ⟨S512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S512x2048, .f32⟩
  | .local _ .vmem, ⟨11, _⟩ => ⟨S512x2048, .f32⟩
  | _, _ => ⟨S2x2048x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  shapeCasts_S2x2048x2_S4096x2 : S2x2048x2.ShapeCasts S4096x2
  bcast_S4096x2_S1x4096x2_1_2 : S4096x2.BroadcastsInDim S1x4096x2 (![1, 2] : Fin 2 → Fin S1x4096x2.rank)
  bcast_S8_S8x1x1_0 : S8.BroadcastsInDim S8x1x1 (![0] : Fin 1 → Fin S8x1x1.rank)
  bcast_S1x4096x2_S8x4096x2_0_1_2 : S1x4096x2.BroadcastsInDim S8x4096x2 (![0, 1, 2] : Fin 3 → Fin S8x4096x2.rank)
  bcast_S8x1x1_S8x4096x2_0_1_2 : S8x1x1.BroadcastsInDim S8x4096x2 (![0, 1, 2] : Fin 3 → Fin S8x4096x2.rank)
  reducesTo_S8x4096x2_S8x4096_d2 : S8x4096x2.ReducesTo [2] S8x4096
  h_S_ : 0 < S_.numel
  shapeCasts_S8x4096_S8x4096x1 : S8x4096.ShapeCasts S8x4096x1
  shapeCasts_S2x2048x2048_S4096x2048 : S2x2048x2048.ShapeCasts S4096x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  shapeCasts_S1x512x1_S512x1 : S1x512x1.ShapeCasts S512x1
  broadcasts_S512x1_S512x512 : S512x1.Broadcasts S512x512
  shapeCasts_S4096x2048_S2x2048x2048 : S4096x2048.ShapeCasts S2x2048x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S8x4096x1.size a
  hwx0_0 : ∀ i : grid0.Coords, EltTy.bits .f32 = 32 ∨ (Rect.block (s := S8x4096x1) S1x512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x4096.size a
  hwx0_2 : ∀ i : grid0.Coords, EltTy.bits .bf16 = 32 ∨ (Rect.block (s := S8x2048x4096) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x4096.size a
  hwx0_3 : ∀ i : grid0.Coords, EltTy.bits .bf16 = 32 ∨ (Rect.block (s := S8x2048x4096) S1x2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x4096x2048.size a
  hwx0_4 : ∀ i : grid0.Coords, EltTy.bits .bf16 = 32 ∨ (Rect.block (s := S8x4096x2048) S1x512x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .f32 = 32 ∨ (Rect.block (s := S4096x2048) S512x2048.size (cc0_transform_5 i) (hinb0_5 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v13) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x2 : Shape := ⟨3, ![2, 2048, 2]⟩
abbrev S2x2048x2048 : Shape := ⟨3, ![2, 2048, 2048]⟩
abbrev S8x2048x4096 : Shape := ⟨3, ![8, 2048, 4096]⟩
abbrev S8x4096x2048 : Shape := ⟨3, ![8, 4096, 2048]⟩
abbrev S_ : Shape := ⟨0, ![]⟩
abbrev S1x2048x4096 : Shape := ⟨3, ![1, 2048, 4096]⟩
abbrev S2048x4096 : Shape := ⟨2, ![2048, 4096]⟩
abbrev S2x2048x4096 : Shape := ⟨3, ![2, 2048, 4096]⟩
abbrev S1x4096x2048 : Shape := ⟨3, ![1, 4096, 2048]⟩
abbrev S4096x2048 : Shape := ⟨2, ![4096, 2048]⟩
abbrev S2x2048 : Shape := ⟨2, ![2, 2048]⟩
abbrev S2x2048x1 : Shape := ⟨3, ![2, 2048, 1]⟩

abbrev nBuf : Space → Nat
  | .hbm => 248
  | .vmem => 0
  | .smem => 0
  | _ => 0

abbrev hbmTy0_0 (i : Nat) : BufTy := match i % 128 with
  | 0 => ⟨S2x2048x2, .i32⟩
  | 1 => ⟨S2x2048x2048, .f32⟩
  | 2 => ⟨S2x2048x2, .f32⟩
  | 3 => ⟨S8x2048x4096, .f32⟩
  | 4 => ⟨S8x4096x2048, .f32⟩
  | 5 => ⟨S8x2048x4096, .f32⟩
  | 6 => ⟨S_, .f32⟩
  | 7 => ⟨S2x2048x2048, .f32⟩
  | 8 => ⟨S1x2048x4096, .f32⟩
  | 9 => ⟨S2048x4096, .f32⟩
  | 10 => ⟨S2x2048x4096, .f32⟩
  | 11 => ⟨S1x2048x4096, .f32⟩
  | 12 => ⟨S2048x4096, .f32⟩
  | 13 => ⟨S2x2048x4096, .f32⟩
  | 14 => ⟨S2x2048x4096, .f32⟩
  | 15 => ⟨S2x2048x4096, .f32⟩
  | 16 => ⟨S_, .f32⟩
  | 17 => ⟨S2x2048x4096, .f32⟩
  | 18 => ⟨S2x2048x4096, .f32⟩
  | 19 => ⟨S_, .f32⟩
  | 20 => ⟨S2x2048x4096, .f32⟩
  | 21 => ⟨S2x2048x4096, .f32⟩
  | 22 => ⟨S2x2048x4096, .f32⟩
  | 23 => ⟨S2x2048x4096, .f32⟩
  | 24 => ⟨S1x4096x2048, .f32⟩
  | 25 => ⟨S4096x2048, .f32⟩
  | 26 => ⟨S2x2048x2048, .f32⟩
  | 27 => ⟨S_, .i32⟩
  | 28 => ⟨S2x2048x2, .i32⟩
  | 29 => ⟨S2x2048x2, .i1⟩
  | 30 => ⟨S2x2048x2, .f32⟩
  | 31 => ⟨S2x2048x2, .f32⟩
  | 32 => ⟨S_, .f32⟩
  | 33 => ⟨S2x2048, .f32⟩
  | 34 => ⟨S2x2048x1, .f32⟩
  | 35 => ⟨S2x2048x2048, .f32⟩
  | 36 => ⟨S2x2048x2048, .f32⟩
  | 37 => ⟨S2x2048x2048, .f32⟩
  | 38 => ⟨S1x2048x4096, .f32⟩
  | 39 => ⟨S2048x4096, .f32⟩
  | 40 => ⟨S2x2048x4096, .f32⟩
  | 41 => ⟨S1x2048x4096, .f32⟩
  | 42 => ⟨S2048x4096, .f32⟩
  | 43 => ⟨S2x2048x4096, .f32⟩
  | 44 => ⟨S2x2048x4096, .f32⟩
  | 45 => ⟨S2x2048x4096, .f32⟩
  | 46 => ⟨S_, .f32⟩
  | 47 => ⟨S2x2048x4096, .f32⟩
  | 48 => ⟨S2x2048x4096, .f32⟩
  | 49 => ⟨S_, .f32⟩
  | 50 => ⟨S2x2048x4096, .f32⟩
  | 51 => ⟨S2x2048x4096, .f32⟩
  | 52 => ⟨S2x2048x4096, .f32⟩
  | 53 => ⟨S2x2048x4096, .f32⟩
  | 54 => ⟨S1x4096x2048, .f32⟩
  | 55 => ⟨S4096x2048, .f32⟩
  | 56 => ⟨S2x2048x2048, .f32⟩
  | 57 => ⟨S_, .i32⟩
  | 58 => ⟨S2x2048x2, .i32⟩
  | 59 => ⟨S2x2048x2, .i1⟩
  | 60 => ⟨S2x2048x2, .f32⟩
  | 61 => ⟨S2x2048x2, .f32⟩
  | 62 => ⟨S_, .f32⟩
  | 63 => ⟨S2x2048, .f32⟩
  | 64 => ⟨S2x2048x1, .f32⟩
  | 65 => ⟨S2x2048x2048, .f32⟩
  | 66 => ⟨S2x2048x2048, .f32⟩
  | 67 => ⟨S2x2048x2048, .f32⟩
  | 68 => ⟨S1x2048x4096, .f32⟩
  | 69 => ⟨S2048x4096, .f32⟩
  | 70 => ⟨S2x2048x4096, .f32⟩
  | 71 => ⟨S1x2048x4096, .f32⟩
  | 72 => ⟨S2048x4096, .f32⟩
  | 73 => ⟨S2x2048x4096, .f32⟩
  | 74 => ⟨S2x2048x4096, .f32⟩
  | 75 => ⟨S2x2048x4096, .f32⟩
  | 76 => ⟨S_, .f32⟩
  | 77 => ⟨S2x2048x4096, .f32⟩
  | 78 => ⟨S2x2048x4096, .f32⟩
  | 79 => ⟨S_, .f32⟩
  | 80 => ⟨S2x2048x4096, .f32⟩
  | 81 => ⟨S2x2048x4096, .f32⟩
  | 82 => ⟨S2x2048x4096, .f32⟩
  | 83 => ⟨S2x2048x4096, .f32⟩
  | 84 => ⟨S1x4096x2048, .f32⟩
  | 85 => ⟨S4096x2048, .f32⟩
  | 86 => ⟨S2x2048x2048, .f32⟩
  | 87 => ⟨S_, .i32⟩
  | 88 => ⟨S2x2048x2, .i32⟩
  | 89 => ⟨S2x2048x2, .i1⟩
  | 90 => ⟨S2x2048x2, .f32⟩
  | 91 => ⟨S2x2048x2, .f32⟩
  | 92 => ⟨S_, .f32⟩
  | 93 => ⟨S2x2048, .f32⟩
  | 94 => ⟨S2x2048x1, .f32⟩
  | 95 => ⟨S2x2048x2048, .f32⟩
  | 96 => ⟨S2x2048x2048, .f32⟩
  | 97 => ⟨S2x2048x2048, .f32⟩
  | 98 => ⟨S1x2048x4096, .f32⟩
  | 99 => ⟨S2048x4096, .f32⟩
  | 100 => ⟨S2x2048x4096, .f32⟩
  | 101 => ⟨S1x2048x4096, .f32⟩
  | 102 => ⟨S2048x4096, .f32⟩
  | 103 => ⟨S2x2048x4096, .f32⟩
  | 104 => ⟨S2x2048x4096, .f32⟩
  | 105 => ⟨S2x2048x4096, .f32⟩
  | 106 => ⟨S_, .f32⟩
  | 107 => ⟨S2x2048x4096, .f32⟩
  | 108 => ⟨S2x2048x4096, .f32⟩
  | 109 => ⟨S_, .f32⟩
  | 110 => ⟨S2x2048x4096, .f32⟩
  | 111 => ⟨S2x2048x4096, .f32⟩
  | 112 => ⟨S2x2048x4096, .f32⟩
  | 113 => ⟨S2x2048x4096, .f32⟩
  | 114 => ⟨S1x4096x2048, .f32⟩
  | 115 => ⟨S4096x2048, .f32⟩
  | 116 => ⟨S2x2048x2048, .f32⟩
  | 117 => ⟨S_, .i32⟩
  | 118 => ⟨S2x2048x2, .i32⟩
  | 119 => ⟨S2x2048x2, .i1⟩
  | 120 => ⟨S2x2048x2, .f32⟩
  | 121 => ⟨S2x2048x2, .f32⟩
  | 122 => ⟨S_, .f32⟩
  | 123 => ⟨S2x2048, .f32⟩
  | 124 => ⟨S2x2048x1, .f32⟩
  | 125 => ⟨S2x2048x2048, .f32⟩
  | 126 => ⟨S2x2048x2048, .f32⟩
  | 127 => ⟨S2x2048x2048, .f32⟩
  | _ => ⟨S2x2048x2, .i32⟩

abbrev hbmTy0_1 (i : Nat) : BufTy := match i % 128 with
  | 0 => ⟨S1x2048x4096, .f32⟩
  | 1 => ⟨S2048x4096, .f32⟩
  | 2 => ⟨S2x2048x4096, .f32⟩
  | 3 => ⟨S1x2048x4096, .f32⟩
  | 4 => ⟨S2048x4096, .f32⟩
  | 5 => ⟨S2x2048x4096, .f32⟩
  | 6 => ⟨S2x2048x4096, .f32⟩
  | 7 => ⟨S2x2048x4096, .f32⟩
  | 8 => ⟨S_, .f32⟩
  | 9 => ⟨S2x2048x4096, .f32⟩
  | 10 => ⟨S2x2048x4096, .f32⟩
  | 11 => ⟨S_, .f32⟩
  | 12 => ⟨S2x2048x4096, .f32⟩
  | 13 => ⟨S2x2048x4096, .f32⟩
  | 14 => ⟨S2x2048x4096, .f32⟩
  | 15 => ⟨S2x2048x4096, .f32⟩
  | 16 => ⟨S1x4096x2048, .f32⟩
  | 17 => ⟨S4096x2048, .f32⟩
  | 18 => ⟨S2x2048x2048, .f32⟩
  | 19 => ⟨S_, .i32⟩
  | 20 => ⟨S2x2048x2, .i32⟩
  | 21 => ⟨S2x2048x2, .i1⟩
  | 22 => ⟨S2x2048x2, .f32⟩
  | 23 => ⟨S2x2048x2, .f32⟩
  | 24 => ⟨S_, .f32⟩
  | 25 => ⟨S2x2048, .f32⟩
  | 26 => ⟨S2x2048x1, .f32⟩
  | 27 => ⟨S2x2048x2048, .f32⟩
  | 28 => ⟨S2x2048x2048, .f32⟩
  | 29 => ⟨S2x2048x2048, .f32⟩
  | 30 => ⟨S1x2048x4096, .f32⟩
  | 31 => ⟨S2048x4096, .f32⟩
  | 32 => ⟨S2x2048x4096, .f32⟩
  | 33 => ⟨S1x2048x4096, .f32⟩
  | 34 => ⟨S2048x4096, .f32⟩
  | 35 => ⟨S2x2048x4096, .f32⟩
  | 36 => ⟨S2x2048x4096, .f32⟩
  | 37 => ⟨S2x2048x4096, .f32⟩
  | 38 => ⟨S_, .f32⟩
  | 39 => ⟨S2x2048x4096, .f32⟩
  | 40 => ⟨S2x2048x4096, .f32⟩
  | 41 => ⟨S_, .f32⟩
  | 42 => ⟨S2x2048x4096, .f32⟩
  | 43 => ⟨S2x2048x4096, .f32⟩
  | 44 => ⟨S2x2048x4096, .f32⟩
  | 45 => ⟨S2x2048x4096, .f32⟩
  | 46 => ⟨S1x4096x2048, .f32⟩
  | 47 => ⟨S4096x2048, .f32⟩
  | 48 => ⟨S2x2048x2048, .f32⟩
  | 49 => ⟨S_, .i32⟩
  | 50 => ⟨S2x2048x2, .i32⟩
  | 51 => ⟨S2x2048x2, .i1⟩
  | 52 => ⟨S2x2048x2, .f32⟩
  | 53 => ⟨S2x2048x2, .f32⟩
  | 54 => ⟨S_, .f32⟩
  | 55 => ⟨S2x2048, .f32⟩
  | 56 => ⟨S2x2048x1, .f32⟩
  | 57 => ⟨S2x2048x2048, .f32⟩
  | 58 => ⟨S2x2048x2048, .f32⟩
  | 59 => ⟨S2x2048x2048, .f32⟩
  | 60 => ⟨S1x2048x4096, .f32⟩
  | 61 => ⟨S2048x4096, .f32⟩
  | 62 => ⟨S2x2048x4096, .f32⟩
  | 63 => ⟨S1x2048x4096, .f32⟩
  | 64 => ⟨S2048x4096, .f32⟩
  | 65 => ⟨S2x2048x4096, .f32⟩
  | 66 => ⟨S2x2048x4096, .f32⟩
  | 67 => ⟨S2x2048x4096, .f32⟩
  | 68 => ⟨S_, .f32⟩
  | 69 => ⟨S2x2048x4096, .f32⟩
  | 70 => ⟨S2x2048x4096, .f32⟩
  | 71 => ⟨S_, .f32⟩
  | 72 => ⟨S2x2048x4096, .f32⟩
  | 73 => ⟨S2x2048x4096, .f32⟩
  | 74 => ⟨S2x2048x4096, .f32⟩
  | 75 => ⟨S2x2048x4096, .f32⟩
  | 76 => ⟨S1x4096x2048, .f32⟩
  | 77 => ⟨S4096x2048, .f32⟩
  | 78 => ⟨S2x2048x2048, .f32⟩
  | 79 => ⟨S_, .i32⟩
  | 80 => ⟨S2x2048x2, .i32⟩
  | 81 => ⟨S2x2048x2, .i1⟩
  | 82 => ⟨S2x2048x2, .f32⟩
  | 83 => ⟨S2x2048x2, .f32⟩
  | 84 => ⟨S_, .f32⟩
  | 85 => ⟨S2x2048, .f32⟩
  | 86 => ⟨S2x2048x1, .f32⟩
  | 87 => ⟨S2x2048x2048, .f32⟩
  | 88 => ⟨S2x2048x2048, .f32⟩
  | 89 => ⟨S2x2048x2048, .f32⟩
  | 90 => ⟨S1x2048x4096, .f32⟩
  | 91 => ⟨S2048x4096, .f32⟩
  | 92 => ⟨S2x2048x4096, .f32⟩
  | 93 => ⟨S1x2048x4096, .f32⟩
  | 94 => ⟨S2048x4096, .f32⟩
  | 95 => ⟨S2x2048x4096, .f32⟩
  | 96 => ⟨S2x2048x4096, .f32⟩
  | 97 => ⟨S2x2048x4096, .f32⟩
  | 98 => ⟨S_, .f32⟩
  | 99 => ⟨S2x2048x4096, .f32⟩
  | 100 => ⟨S2x2048x4096, .f32⟩
  | 101 => ⟨S_, .f32⟩
  | 102 => ⟨S2x2048x4096, .f32⟩
  | 103 => ⟨S2x2048x4096, .f32⟩
  | 104 => ⟨S2x2048x4096, .f32⟩
  | 105 => ⟨S2x2048x4096, .f32⟩
  | 106 => ⟨S1x4096x2048, .f32⟩
  | 107 => ⟨S4096x2048, .f32⟩
  | 108 => ⟨S2x2048x2048, .f32⟩
  | 109 => ⟨S_, .i32⟩
  | 110 => ⟨S2x2048x2, .i32⟩
  | 111 => ⟨S2x2048x2, .i1⟩
  | 112 => ⟨S2x2048x2, .f32⟩
  | 113 => ⟨S2x2048x2, .f32⟩
  | 114 => ⟨S_, .f32⟩
  | 115 => ⟨S2x2048, .f32⟩
  | 116 => ⟨S2x2048x1, .f32⟩
  | 117 => ⟨S2x2048x2048, .f32⟩
  | 118 => ⟨S2x2048x2048, .f32⟩
  | 119 => ⟨S2x2048x2048, .f32⟩
  | _ => ⟨S2x2048x2, .i32⟩

abbrev hbmTy (i : Nat) : BufTy := match i / 128 with
  | 0 => hbmTy0_0 i
  | 1 => hbmTy0_1 i
  | _ => ⟨S2x2048x2, .i32⟩

abbrev bufTy : (tb : Table) → Fin (tcTables nBuf tb) → BufTy
  | .hbm, ⟨i, _⟩ => hbmTy i
  | _, _ => ⟨S2x2048x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_1 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_3 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_4 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_5 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_6 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_call4_v0 : Ref sig .tc := ⟨.hbm, 134, rfl⟩
abbrev main_call4_v1 : Ref sig .tc := ⟨.hbm, 135, rfl⟩
abbrev main_call4_cst : Ref sig .tc := ⟨.hbm, 136, rfl⟩
abbrev main_call4_v2 : Ref sig .tc := ⟨.hbm, 137, rfl⟩
abbrev main_call4_v3 : Ref sig .tc := ⟨.hbm, 138, rfl⟩
abbrev main_call4_cst_0 : Ref sig .tc := ⟨.hbm, 139, rfl⟩
abbrev main_call4_v4 : Ref sig .tc := ⟨.hbm, 140, rfl⟩
abbrev main_call4_v5 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_c_7 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_8 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_call5_v0 : Ref sig .tc := ⟨.hbm, 164, rfl⟩
abbrev main_call5_v1 : Ref sig .tc := ⟨.hbm, 165, rfl⟩
abbrev main_call5_cst : Ref sig .tc := ⟨.hbm, 166, rfl⟩
abbrev main_call5_v2 : Ref sig .tc := ⟨.hbm, 167, rfl⟩
abbrev main_call5_v3 : Ref sig .tc := ⟨.hbm, 168, rfl⟩
abbrev main_call5_cst_0 : Ref sig .tc := ⟨.hbm, 169, rfl⟩
abbrev main_call5_v4 : Ref sig .tc := ⟨.hbm, 170, rfl⟩
abbrev main_call5_v5 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_c_9 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_cst_10 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_call6_v0 : Ref sig .tc := ⟨.hbm, 194, rfl⟩
abbrev main_call6_v1 : Ref sig .tc := ⟨.hbm, 195, rfl⟩
abbrev main_call6_cst : Ref sig .tc := ⟨.hbm, 196, rfl⟩
abbrev main_call6_v2 : Ref sig .tc := ⟨.hbm, 197, rfl⟩
abbrev main_call6_v3 : Ref sig .tc := ⟨.hbm, 198, rfl⟩
abbrev main_call6_cst_0 : Ref sig .tc := ⟨.hbm, 199, rfl⟩
abbrev main_call6_v4 : Ref sig .tc := ⟨.hbm, 200, rfl⟩
abbrev main_call6_v5 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_c_11 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_cst_12 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_call7_v0 : Ref sig .tc := ⟨.hbm, 224, rfl⟩
abbrev main_call7_v1 : Ref sig .tc := ⟨.hbm, 225, rfl⟩
abbrev main_call7_cst : Ref sig .tc := ⟨.hbm, 226, rfl⟩
abbrev main_call7_v2 : Ref sig .tc := ⟨.hbm, 227, rfl⟩
abbrev main_call7_v3 : Ref sig .tc := ⟨.hbm, 228, rfl⟩
abbrev main_call7_cst_0 : Ref sig .tc := ⟨.hbm, 229, rfl⟩
abbrev main_call7_v4 : Ref sig .tc := ⟨.hbm, 230, rfl⟩
abbrev main_call7_v5 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_c_13 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_cst_14 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩

abbrev nD : Nat := 1
abbrev τ : Topo := Topo.v7x

variable {F : FTy → Type} [FloatOps F]

class Facts₀ : Prop where
  bcast_S_S2x2048x2048 : S_.BroadcastsInDim S2x2048x2048 (![] : Fin 0 → Fin S2x2048x2048.rank)
  slices_S8x2048x4096_S1x2048x4096_0_0_0 : S8x2048x4096.Slices ![0, 0, 0] S1x2048x4096
  shapeCasts_S1x2048x4096_S2048x4096 : S1x2048x4096.ShapeCasts S2048x4096
  bcast_S_S2x2048x4096 : S_.BroadcastsInDim S2x2048x4096 (![] : Fin 0 → Fin S2x2048x4096.rank)
  slices_S8x4096x2048_S1x4096x2048_0_0_0 : S8x4096x2048.Slices ![0, 0, 0] S1x4096x2048
  shapeCasts_S1x4096x2048_S4096x2048 : S1x4096x2048.ShapeCasts S4096x2048
  bcast_S_S2x2048x2 : S_.BroadcastsInDim S2x2048x2 (![] : Fin 0 → Fin S2x2048x2.rank)
  reducesTo_S2x2048x2_S2x2048_d2 : S2x2048x2.ReducesTo [2] S2x2048
  h_S_ : 0 < S_.numel
  bcast_S2x2048_S2x2048x1_0_1 : S2x2048.BroadcastsInDim S2x2048x1 (![0, 1] : Fin 2 → Fin S2x2048x1.rank)
  bcast_S2x2048x1_S2x2048x2048_0_1_2 : S2x2048x1.BroadcastsInDim S2x2048x2048 (![0, 1, 2] : Fin 3 → Fin S2x2048x2048.rank)
  slices_S8x2048x4096_S1x2048x4096_1_0_0 : S8x2048x4096.Slices ![1, 0, 0] S1x2048x4096
  slices_S8x4096x2048_S1x4096x2048_1_0_0 : S8x4096x2048.Slices ![1, 0, 0] S1x4096x2048
  slices_S8x2048x4096_S1x2048x4096_2_0_0 : S8x2048x4096.Slices ![2, 0, 0] S1x2048x4096
  slices_S8x4096x2048_S1x4096x2048_2_0_0 : S8x4096x2048.Slices ![2, 0, 0] S1x4096x2048
  slices_S8x2048x4096_S1x2048x4096_3_0_0 : S8x2048x4096.Slices ![3, 0, 0] S1x2048x4096
  slices_S8x4096x2048_S1x4096x2048_3_0_0 : S8x4096x2048.Slices ![3, 0, 0] S1x4096x2048
  slices_S8x2048x4096_S1x2048x4096_4_0_0 : S8x2048x4096.Slices ![4, 0, 0] S1x2048x4096
  slices_S8x4096x2048_S1x4096x2048_4_0_0 : S8x4096x2048.Slices ![4, 0, 0] S1x4096x2048
  slices_S8x2048x4096_S1x2048x4096_5_0_0 : S8x2048x4096.Slices ![5, 0, 0] S1x2048x4096
  slices_S8x4096x2048_S1x4096x2048_5_0_0 : S8x4096x2048.Slices ![5, 0, 0] S1x4096x2048
  slices_S8x2048x4096_S1x2048x4096_6_0_0 : S8x2048x4096.Slices ![6, 0, 0] S1x2048x4096
  slices_S8x4096x2048_S1x4096x2048_6_0_0 : S8x4096x2048.Slices ![6, 0, 0] S1x4096x2048
  slices_S8x2048x4096_S1x2048x4096_7_0_0 : S8x2048x4096.Slices ![7, 0, 0] S1x2048x4096
  slices_S8x4096x2048_S1x4096x2048_7_0_0 : S8x4096x2048.Slices ![7, 0, 0] S1x4096x2048
  dot_S2x2048x2048_S2048x4096_S2x2048x4096_2_0_01_1_n_n_wf : DotDims.WF S2x2048x2048 S2048x4096 S2x2048x4096 [2] [0] [0, 1] [1] [] []
  dot_S2x2048x4096_S4096x2048_S2x2048x2048_2_0_01_1_n_n_wf : DotDims.WF S2x2048x4096 S4096x2048 S2x2048x2048 [2] [0] [0, 1] [1] [] []

variable [Facts₀]

def dot_S2x2048x2048_S2048x4096_S2x2048x4096_2_0_01_1_n_n : DotDims S2x2048x2048 S2048x4096 S2x2048x4096 where
  lhsContracting := [2]
  rhsContracting := [0]
  lhsNonContracting := [0, 1]
  rhsNonContracting := [1]
  lhsBatch := []
  rhsBatch := []
  wf := dot_S2x2048x2048_S2048x4096_S2x2048x4096_2_0_01_1_n_n_wf
def dot_S2x2048x4096_S4096x2048_S2x2048x2048_2_0_01_1_n_n : DotDims S2x2048x4096 S4096x2048 S2x2048x2048 where
  lhsContracting := [2]
  rhsContracting := [0]
  lhsNonContracting := [0, 1]
  rhsNonContracting := [1]
  lhsBatch := []
  rhsBatch := []
  wf := dot_S2x2048x4096_S4096x2048_S2x2048x2048_2_0_01_1_n_n_wf

class Facts : Prop extends Facts₀ where

variable [Facts]
-- ==== Proof.Spec.lean ====
/-
  The mixture-of-experts value both programs compute, over the extended reals, as functions of the argument arrays.

  Tokens are indexed by (b, s), b < 2, s < 2048, or by the flat row n = 2048 b + s < 4096.  For expert e:
    up x w e b s k    = Σ_j x[b,s,j] · w[e,j,k]                         (an up-projection, j < 2048, k < 4096)
    act e b s k       = (up₁ · logistic(up₁)) · up₃                     (silu of the first projection times the second)
    gate e b s        = Σ_k [se[b,s,k] = e] · rw[b,s,k]                 (the token's combine weight for expert e, k < 2)
  The reference arrangement weights each expert's down-projection AFTER contracting:
    refV b s h        = Σ_e gate e b s · Σ_k act e b s k · w2[e,k,h]
  The kernel arrangement folds the weight into the activation BEFORE contracting and contracts the 4096 inner
  coordinates in 8 chunks of 512, adding one (expert, chunk) step at a time, step q = 8 e + f, q < 64:
    kernelV b s h     = Σ_{q<64} Σ_{k<512} (act e b s (512 f + k) · gate e b s) · w2[e, 512 f + k, h]
  The two agree when every entry is finite (moving the weight across the sum is distributivity, which fails at ±∞).
-/
import Idealize.ShloMosaic.PureOps.Ideal

noncomputable section

namespace Cert.Spec

open Idealize.ShloMosaic

/-- The arrays, curried over their coordinates. -/
abbrev SelT := Fin 2 → Fin 2048 → Fin 2 → BitVec 32
abbrev HidT := Fin 2 → Fin 2048 → Fin 2048 → EReal
abbrev RouT := Fin 2 → Fin 2048 → Fin 2 → EReal
abbrev UpT := Fin 8 → Fin 2048 → Fin 4096 → EReal
abbrev DownT := Fin 8 → Fin 4096 → Fin 2048 → EReal

/-- The routing indicator: 1 when the selected expert word equals e, else 0. -/
def ind (v : BitVec 32) (e : Fin 8) : EReal :=
  FloatOps.uitofp (F := Ideal) .f32 (IntOp.cmpi .eq v (BitVec.ofNat 32 e.val))

/-- A token's combine weight for expert e. -/
def gate (se : SelT) (rw : RouT) (e : Fin 8) (b : Fin 2) (s : Fin 2048) : EReal :=
  ∑ k : Fin 2, ind (se b s k) e * rw b s k

/-- An up-projection of a token's hidden state by expert e's matrix. -/
def up (x : HidT) (w : UpT) (e : Fin 8) (b : Fin 2) (s : Fin 2048) (k : Fin 4096) : EReal :=
  ∑ j : Fin 2048, x b s j * w e j k

/-- The gated activation: silu of the first projection times the second. -/
def act (x : HidT) (w1 w3 : UpT) (e : Fin 8) (b : Fin 2) (s : Fin 2048) (k : Fin 4096) : EReal :=
  (up x w1 e b s k * Ideal.logistic (up x w1 e b s k)) * up x w3 e b s k

/-- The reference arrangement. -/
def refV (se : SelT) (x : HidT) (rw : RouT) (w1 : UpT) (w2 : DownT) (w3 : UpT) (b : Fin 2) (s : Fin 2048) (h : Fin 2048) : EReal :=
  ∑ e : Fin 8, gate se rw e b s * ∑ k : Fin 4096, act x w1 w3 e b s k * w2 e k h

/-- Step q's expert and chunk (q = 8 e + f), and the inner coordinate 512 f + k. -/
def eOf (q : ℕ) : Fin 8 := ⟨q / 8 % 8, Nat.mod_lt _ (by decide)⟩
def fOf (q : ℕ) : Fin 8 := ⟨q % 8, Nat.mod_lt _ (by decide)⟩
def kk (f : Fin 8) (k : Fin 512) : Fin 4096 := ⟨512 * f.val + k.val, by have := f.isLt; have := k.isLt; omega⟩

/-- The flat row of a token and back. -/
def row (b : Fin 2) (s : Fin 2048) : Fin 4096 := ⟨2048 * b.val + s.val, by have := b.isLt; have := s.isLt; omega⟩
def bOf (n : Fin 4096) : Fin 2 := ⟨n.val / 2048, by have := n.isLt; omega⟩
def sOf (n : Fin 4096) : Fin 2048 := ⟨n.val % 2048, Nat.mod_lt _ (by decide)⟩

theorem bOf_row (b : Fin 2) (s : Fin 2048) : bOf (row b s) = b := by
  apply Fin.ext; show (2048 * b.val + s.val) / 2048 = b.val; have := s.isLt; omega
theorem sOf_row (b : Fin 2) (s : Fin 2048) : sOf (row b s) = s := by
  apply Fin.ext; show (2048 * b.val + s.val) % 2048 = s.val; have := s.isLt; omega
theorem row_bOf_sOf (n : Fin 4096) : row (bOf n) (sOf n) = n := by
  apply Fin.ext; show 2048 * (n.val / 2048) + n.val % 2048 = n.val; omega

/-- One (expert, chunk) step of the kernel arrangement over FLAT arrays: gates G[e,n], hidden states X[n,j]. -/
def stepF (G : Fin 8 → Fin 4096 → EReal) (X : Fin 4096 → Fin 2048 → EReal) (W1 W3 : UpT) (W2 : DownT)
    (n : Fin 4096) (h : Fin 2048) (q : ℕ) : EReal :=
  ∑ k : Fin 512,
    ((((∑ j : Fin 2048, X n j * W1 (eOf q) j (kk (fOf q) k)) * Ideal.logistic (∑ j : Fin 2048, X n j * W1 (eOf q) j (kk (fOf q) k)))
        * (∑ j : Fin 2048, X n j * W3 (eOf q) j (kk (fOf q) k))) * G (eOf q) n) * W2 (eOf q) (kk (fOf q) k) h

/-- The kernel arrangement over flat arrays: the 64 steps added in order. -/
def flatV (G : Fin 8 → Fin 4096 → EReal) (X : Fin 4096 → Fin 2048 → EReal) (W1 W3 : UpT) (W2 : DownT)
    (n : Fin 4096) (h : Fin 2048) : EReal :=
  ∑ q ∈ Finset.range 64, stepF G X W1 W3 W2 n h q

/-- The kernel arrangement as a function of the argument arrays: the flat form at the flattened gates and hidden states. -/
def kernelV (se : SelT) (x : HidT) (rw : RouT) (w1 : UpT) (w2 : DownT) (w3 : UpT) (b : Fin 2) (s : Fin 2048) (h : Fin 2048) : EReal :=
  flatV (fun e n => gate se rw e (bOf n) (sOf n)) (fun n j => x (bOf n) (sOf n) j) w1 w3 w2 (row b s) h

end Cert.Spec

end
-- ==== Proof.Algebra.lean ====
/-
  The kernel arrangement equals the reference arrangement when every float entry is a real number.
-/
import proofs.«121479_j17446157156565_2_alg».proof.Proof.Spec

noncomputable section

namespace Cert.Algebra

open Cert.Spec
open Idealize.ShloMosaic

/-! ### Coercions of finite real sums -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Reindexing: 64 steps are 8 experts times 8 chunks, 4096 coordinates are 8 chunks of 512 -/

/-- A sum over Fin (m n) is the iterated sum over Fin m and Fin n, along (a, b) ↦ b + n a. -/
theorem sum_fin_mul (m n : ℕ) (F : Fin (m * n) → ℝ) :
    ∑ i : Fin (m * n), F i = ∑ a : Fin m, ∑ b : Fin n, F (finProdFinEquiv (a, b)) := by
  rw [← Equiv.sum_comp finProdFinEquiv F, Fintype.sum_prod_type]

/-- The 4096 inner coordinates are 8 chunks of 512. -/
theorem sum_chunks (F : Fin 4096 → ℝ) :
    ∑ k' : Fin 4096, F k' = ∑ f : Fin 8, ∑ k : Fin 512, F (kk f k) := by
  refine (sum_fin_mul 8 512 F).trans ?_
  refine Finset.sum_congr rfl (fun f _ => Finset.sum_congr rfl (fun k _ => ?_))
  congr 1
  apply Fin.ext
  show k.val + 512 * f.val = 512 * f.val + k.val
  omega

/-- The 64 steps are 8 experts times 8 chunks, step 8 e + f. -/
theorem sum_steps (T : ℕ → ℝ) :
    ∑ q ∈ Finset.range 64, T q = ∑ e : Fin 8, ∑ f : Fin 8, T (8 * e.val + f.val) := by
  rw [Finset.sum_range]
  refine (sum_fin_mul 8 8 (fun q => T q.val)).trans ?_
  refine Finset.sum_congr rfl (fun e _ => Finset.sum_congr rfl (fun f _ => ?_))
  congr 1
  show f.val + 8 * e.val = 8 * e.val + f.val
  omega

/-- The expert and the chunk of step 8 e + f. -/
theorem eOf_step (e f : Fin 8) : eOf (8 * e.val + f.val) = e := by
  apply Fin.ext
  show (8 * e.val + f.val) / 8 % 8 = e.val
  have := e.isLt; have := f.isLt; omega
theorem fOf_step (e f : Fin 8) : fOf (8 * e.val + f.val) = f := by
  apply Fin.ext
  show (8 * e.val + f.val) % 8 = f.val
  have := f.isLt; omega

/-! ### The identity over the reals -/

/-- Over the reals the weight g moves across the inner sum, and the 64 steps over chunks of 512 cover each
    expert's 4096 inner coordinates once. -/
theorem real_identity (A W : Fin 8 → Fin 4096 → ℝ) (g : Fin 8 → ℝ) :
    ∑ q ∈ Finset.range 64, ∑ k : Fin 512, (A (eOf q) (kk (fOf q) k) * g (eOf q)) * W (eOf q) (kk (fOf q) k)
      = ∑ e : Fin 8, g e * ∑ k : Fin 4096, A e k * W e k := by
  refine (sum_steps (fun q => ∑ k : Fin 512, (A (eOf q) (kk (fOf q) k) * g (eOf q)) * W (eOf q) (kk (fOf q) k))).trans ?_
  refine Finset.sum_congr rfl (fun e _ => ?_)
  rw [sum_chunks (fun k => A e k * W e k), Finset.mul_sum]
  refine Finset.sum_congr rfl (fun f _ => ?_)
  rw [Finset.mul_sum]
  refine Finset.sum_congr rfl (fun k _ => ?_)
  show (A (eOf (8 * e.val + f.val)) (kk (fOf (8 * e.val + f.val)) k) * g (eOf (8 * e.val + f.val)))
      * W (eOf (8 * e.val + f.val)) (kk (fOf (8 * e.val + f.val)) k) = g e * (A e (kk f k) * W e (kk f k))
  rw [eOf_step, fOf_step]
  ring

/-! ### The arrangement's parts at real arrays are real numbers -/

/-- The routing indicator as a real number: the compare's one-bit answer read as 0 or 1. -/
def indR (v : BitVec 32) (e : Fin 8) : ℝ := ((IntOp.cmpi .eq v (BitVec.ofNat 32 e.val)).toNat : ℝ)

theorem ind_coe (v : BitVec 32) (e : Fin 8) : ind v e = ((indR v e : ℝ) : EReal) := rfl

/-- The combine weight over the reals. -/
def gateR (se : SelT) (rw : Fin 2 → Fin 2048 → Fin 2 → ℝ) (e : Fin 8) (b : Fin 2) (s : Fin 2048) : ℝ :=
  ∑ k : Fin 2, indR (se b s k) e * rw b s k

/-- An up-projection over the reals. -/
def upR (x : Fin 2 → Fin 2048 → Fin 2048 → ℝ) (w : Fin 8 → Fin 2048 → Fin 4096 → ℝ)
    (e : Fin 8) (b : Fin 2) (s : Fin 2048) (k : Fin 4096) : ℝ :=
  ∑ j : Fin 2048, x b s j * w e j k

/-- The gated activation over the reals; the logistic of a real u is 1 / (1 + exp (-u)). -/
def actR (x : Fin 2 → Fin 2048 → Fin 2048 → ℝ) (w1 w3 : Fin 8 → Fin 2048 → Fin 4096 → ℝ)
    (e : Fin 8) (b : Fin 2) (s : Fin 2048) (k : Fin 4096) : ℝ :=
  (upR x w1 e b s k * (1 + Real.exp (-(upR x w1 e b s k)))⁻¹) * upR x w3 e b s k

theorem gate_coe (se : SelT) (rw : Fin 2 → Fin 2048 → Fin 2 → ℝ) (e : Fin 8) (b : Fin 2) (s : Fin 2048) :
    gate se (fun b s k => ((rw b s k : ℝ) : EReal)) e b s = ((gateR se rw e b s : ℝ) : EReal) := by
  unfold gate gateR
  rw [coe_sum]
  refine Finset.sum_congr rfl (fun k _ => ?_)
  rw [EReal.coe_mul, ind_coe]

theorem up_coe (x : Fin 2 → Fin 2048 → Fin 2048 → ℝ) (w : Fin 8 → Fin 2048 → Fin 4096 → ℝ)
    (e : Fin 8) (b : Fin 2) (s : Fin 2048) (k : Fin 4096) :
    up (fun b s j => ((x b s j : ℝ) : EReal)) (fun e j k => ((w e j k : ℝ) : EReal)) e b s k
      = ((upR x w e b s k : ℝ) : EReal) := by
  unfold up upR
  rw [coe_sum]
  refine Finset.sum_congr rfl (fun j _ => ?_)
  rw [EReal.coe_mul]

theorem act_coe (x : Fin 2 → Fin 2048 → Fin 2048 → ℝ) (w1 w3 : Fin 8 → Fin 2048 → Fin 4096 → ℝ)
    (e : Fin 8) (b : Fin 2) (s : Fin 2048) (k : Fin 4096) :
    act (fun b s j => ((x b s j : ℝ) : EReal)) (fun e j k => ((w1 e j k : ℝ) : EReal))
        (fun e j k => ((w3 e j k : ℝ) : EReal)) e b s k
      = ((actR x w1 w3 e b s k : ℝ) : EReal) := by
  unfold act actR
  rw [up_coe, up_coe, Ideal.logistic_coe, ← EReal.coe_mul, ← EReal.coe_mul]

/-! ### The two arrangements -/

/-- The kernel arrangement at a token, with the flat row folded back to (b, s). -/
theorem kernelV_eq (se : SelT) (x : HidT) (rw : RouT) (w1 : UpT) (w2 : DownT) (w3 : UpT)
    (b : Fin 2) (s : Fin 2048) (h : Fin 2048) :
    kernelV se x rw w1 w2 w3 b s h
      = ∑ q ∈ Finset.range 64, ∑ k : Fin 512,
          (act x w1 w3 (eOf q) b s (kk (fOf q) k) * gate se rw (eOf q) b s) * w2 (eOf q) (kk (fOf q) k) h := by
  unfold kernelV flatV stepF
  simp only [bOf_row, sOf_row]
  rfl

/-- With finite entries the weight of a token moves across the inner sum, and the 8 chunks of 512 inner coordinates
    are the 4096 coordinates: the two arrangements are one real number. -/
theorem kernelV_eq_refV (se : SelT) (x : HidT) (rw : RouT) (w1 : UpT) (w2 : DownT) (w3 : UpT)
    (hx : ∀ b s j, ∃ r : ℝ, x b s j = (r : EReal)) (hrw : ∀ b s k, ∃ r : ℝ, rw b s k = (r : EReal))
    (hw1 : ∀ e j k, ∃ r : ℝ, w1 e j k = (r : EReal)) (hw2 : ∀ e k h, ∃ r : ℝ, w2 e k h = (r : EReal))
    (hw3 : ∀ e j k, ∃ r : ℝ, w3 e j k = (r : EReal)) (b : Fin 2) (s : Fin 2048) (h : Fin 2048) :
    kernelV se x rw w1 w2 w3 b s h = refV se x rw w1 w2 w3 b s h := by
  choose x' hx' using hx
  choose rw' hrw' using hrw
  choose w1' hw1' using hw1
  choose w2' hw2' using hw2
  choose w3' hw3' using hw3
  have ex : x = fun b s j => ((x' b s j : ℝ) : EReal) := by funext b s j; exact hx' b s j
  have erw : rw = fun b s k => ((rw' b s k : ℝ) : EReal) := by funext b s k; exact hrw' b s k
  have ew1 : w1 = fun e j k => ((w1' e j k : ℝ) : EReal) := by funext e j k; exact hw1' e j k
  have ew2 : w2 = fun e k h => ((w2' e k h : ℝ) : EReal) := by funext e k h; exact hw2' e k h
  have ew3 : w3 = fun e j k => ((w3' e j k : ℝ) : EReal) := by funext e j k; exact hw3' e j k
  subst ex erw ew1 ew2 ew3
  -- the kernel arrangement is the coercion of a real double sum
  have hk : kernelV se (fun b s j => ((x' b s j : ℝ) : EReal)) (fun b s k => ((rw' b s k : ℝ) : EReal))
        (fun e j k => ((w1' e j k : ℝ) : EReal)) (fun e k h => ((w2' e k h : ℝ) : EReal))
        (fun e j k => ((w3' e j k : ℝ) : EReal)) b s h
      = ((∑ q ∈ Finset.range 64, ∑ k : Fin 512,
          (actR x' w1' w3' (eOf q) b s (kk (fOf q) k) * gateR se rw' (eOf q) b s) * w2' (eOf q) (kk (fOf q) k) h : ℝ) : EReal) := by
    rw [kernelV_eq, coe_sum]
    refine Finset.sum_congr rfl (fun q _ => ?_)
    rw [coe_sum]
    refine Finset.sum_congr rfl (fun k _ => ?_)
    rw [act_coe, gate_coe, EReal.coe_mul, EReal.coe_mul]
  -- the reference arrangement is the coercion of a real double sum
  have hr : refV se (fun b s j => ((x' b s j : ℝ) : EReal)) (fun b s k => ((rw' b s k : ℝ) : EReal))
        (fun e j k => ((w1' e j k : ℝ) : EReal)) (fun e k h => ((w2' e k h : ℝ) : EReal))
        (fun e j k => ((w3' e j k : ℝ) : EReal)) b s h
      = ((∑ e : Fin 8, gateR se rw' e b s * ∑ k : Fin 4096, actR x' w1' w3' e b s k * w2' e k h : ℝ) : EReal) := by
    unfold refV
    rw [coe_sum]
    refine Finset.sum_congr rfl (fun e _ => ?_)
    rw [EReal.coe_mul, coe_sum, gate_coe]
    refine congrArg (fun t : EReal => ((gateR se rw' e b s : ℝ) : EReal) * t) ?_
    refine Finset.sum_congr rfl (fun k _ => ?_)
    rw [act_coe, EReal.coe_mul]
  rw [hk, hr]
  exact congrArg (fun r : ℝ => (r : EReal))
    (real_identity (fun e k => actR x' w1' w3' e b s k) (fun e k => w2' e k h) (fun e => gateR se rw' e b s))

end Cert.Algebra

end
-- ==== Proof.Finite.lean ====
/-
  The precondition: every float argument entry is a real number.
-/
import proofs.«121479_j17446157156565_2_alg».proof.Pre_finite_inputs
import proofs.«121479_j17446157156565_2_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Cert.Pre_finite_inputs

/-- The rank-0 shape has exactly one index. -/
instance : Subsingleton S_.Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- On the extended reals, |x| < +∞ holds only at a real number: at ⊥ and at ⊤ the absolute value
    max x (-x) is ⊤. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- An all-true reduction by "and" of the comparison |x| < +∞ over a whole array says that every entry
    of the array is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32))) init hr hu
        ValueIdx.ix0 = 1#1) :
    ∀ i, ∃ r : ℝ, x i = (r : EReal) := by
  intro i
  have hi := Host.reduce_andi_all _ init hr hu ValueIdx.ix0 e i
  exact real_of_abs_lt_inf (x i) hi

/-- If the finiteness predicate evaluates to all ones, every entry of the five float arrays is a real number
    (|x| < +∞ on the extended reals excludes both infinities). -/
theorem real_of_pre (a0 : IVec S2x2048x2 32) (a1 : FVec Ideal S2x2048x2048 .f32) (a2 : FVec Ideal S2x2048x2 .f32)
    (a3 : FVec Ideal S8x2048x4096 .f32) (a4 : FVec Ideal S8x4096x2048 .f32) (a5 : FVec Ideal S8x2048x4096 .f32)
    (h : Cert.Pre_finite_inputs.fn (F := Ideal) a0 a1 a2 a3 a4 a5 = fun _ => 1#1) :
    (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨real_of_all a1 _ _ _ _ h1, real_of_all a2 _ _ _ _ h2, real_of_all a3 _ _ _ _ h3,
    real_of_all a4 _ _ _ _ h4, real_of_all a5 _ _ _ _ h5⟩

end Cert.Finite

end
-- ==== Proof.RefValue.lean ====
/-
  The reference program's result, entry by entry, is the reference arrangement of the specification.

  The program handles the eight experts one after another, each by the same stretch of operations: two up-projections of the
  token by the expert's slices of the first and third weight arrays, the gated activation h₁ · (1 / (1 + exp(−h₁))) · h₃,
  the down-projection by the expert's slice of the second weight array, and the token's combine weight for the expert (the sum
  over the two selected slots of the indicator of the expert times the routing weight), broadcast along the hidden axis. Each
  stretch is read at one entry (b, s, h), with its sums kept as sums; the result adds the eight terms in order from zero.
-/
import proofs.«121479_j17446157156565_2_alg».proof.Proof.Gen.ReferenceIdeal.Read
import proofs.«121479_j17446157156565_2_alg».proof.Proof.Spec
import Idealize.ShloMosaic.Lib.ValueIdx

noncomputable section

namespace Cert.RefValue

open Idealize.ShloMosaic Idealize.ShloMosaic.ValueIdx Cert.ReferenceIdeal

section Experts

/-- The argument arrays curried over their coordinates. -/
abbrev cSel (x0 : (⟨S2x2048x2, .i32⟩ : BufTy).Contents (Elt Ideal)) : Spec.SelT := fun b s k => x0 (ix3 b s k)
abbrev cHid (x1 : (⟨S2x2048x2048, .f32⟩ : BufTy).Contents (Elt Ideal)) : Spec.HidT := fun b s j => x1 (ix3 b s j)
abbrev cRou (x2 : (⟨S2x2048x2, .f32⟩ : BufTy).Contents (Elt Ideal)) : Spec.RouT := fun b s k => x2 (ix3 b s k)
abbrev cUp (x : (⟨S8x2048x4096, .f32⟩ : BufTy).Contents (Elt Ideal)) : Spec.UpT := fun e j k => x (ix3 e j k)
abbrev cDown (x4 : (⟨S8x4096x2048, .f32⟩ : BufTy).Contents (Elt Ideal)) : Spec.DownT := fun e k h => x4 (ix3 e k h)

/-- The single-precision word 0x3F800000 denotes 1. -/
theorem ofBits_one : Ideal.ofBits .f32 0x3F800000#32 = 1 := by
  simp [Ideal.ofBits, Ideal.ieee, -EReal.coe_mul]; norm_num

variable (x0 : (⟨S2x2048x2, .i32⟩ : BufTy).Contents (Elt Ideal)) (x1 : (⟨S2x2048x2048, .f32⟩ : BufTy).Contents (Elt Ideal))
    (x2 : (⟨S2x2048x2, .f32⟩ : BufTy).Contents (Elt Ideal)) (x3 : (⟨S8x2048x4096, .f32⟩ : BufTy).Contents (Elt Ideal))
    (x4 : (⟨S8x4096x2048, .f32⟩ : BufTy).Contents (Elt Ideal)) (x5 : (⟨S8x2048x4096, .f32⟩ : BufTy).Contents (Elt Ideal))

/-! ### Expert 0 -/

/-- Expert 0's first up-projection at (b, s, k): the slice of the first weight array at 0, contracted with the token. -/
theorem up1_0 (b : Fin 2) (s : Fin 2048) (k : Fin 4096) :
    Read.val_main_v3 (F := Ideal) x1 x3 (ix3 b s k) = Spec.up (cHid x1) (cUp x3) (0 : Fin 8) b s k := by
  rw [Read.val_main_v3_apply]
  unfold Spec.up
  refine Finset.sum_congr rfl fun j _ => ?_
  rw [Read.val_main_v2_apply, Read.val_main_v1_apply]
  have e1 : Read.lidx_main_v3 (ix3 b s k) j = ix3 b s j := funext fun a => Fin.ext (by match a with | ⟨0, _⟩ => rfl | ⟨1, _⟩ => rfl | ⟨2, _⟩ => rfl)
  have e2 : Read.idx_main_v1 (Read.idx_main_v2 (Read.ridx_main_v3 (ix3 b s k) j)) = ix3 (0 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 0's second up-projection at (b, s, k). -/
theorem up3_0 (b : Fin 2) (s : Fin 2048) (k : Fin 4096) :
    Read.val_main_v6 (F := Ideal) x1 x5 (ix3 b s k) = Spec.up (cHid x1) (cUp x5) (0 : Fin 8) b s k := by
  rw [Read.val_main_v6_apply]
  unfold Spec.up
  refine Finset.sum_congr rfl fun j _ => ?_
  rw [Read.val_main_v5_apply, Read.val_main_v4_apply]
  have e1 : Read.lidx_main_v6 (ix3 b s k) j = ix3 b s j := funext fun a => Fin.ext (by match a with | ⟨0, _⟩ => rfl | ⟨1, _⟩ => rfl | ⟨2, _⟩ => rfl)
  have e2 : Read.idx_main_v4 (Read.idx_main_v5 (Read.ridx_main_v6 (ix3 b s k) j)) = ix3 (0 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 0's gated activation at (b, s, k): h₁ · (1 / (1 + exp(−h₁))) · h₃ is silu(h₁) · h₃. -/
theorem act_0 (b : Fin 2) (s : Fin 2048) (k : Fin 4096) :
    Read.val_main_v8 (F := Ideal) x1 x3 x5 (ix3 b s k) = Spec.act (cHid x1) (cUp x3) (cUp x5) (0 : Fin 8) b s k := by
  rw [Read.val_main_v8_apply, Read.val_main_v7_apply, Read.val_main_call0_v5_apply, Read.val_main_call0_v4_apply, Read.val_main_call0_cst_0_apply,
    Read.val_main_call0_v3_apply, Read.val_main_call0_v2_apply, Read.val_main_call0_cst_apply, Read.val_main_call0_v1_apply, Read.val_main_call0_v0_apply,
    up1_0, up3_0]
  simp only [Ideal.mulf_def, Ideal.addf_def, Ideal.hostDivf_def, Ideal.hostUnary_exp_def, Ideal.hostNegf_def, Ideal.negf_def,
    Ideal.ofBits_def, ofBits_one]
  rfl

/-- Expert 0's down-projection at (b, s, h): the activation contracted with the slice of the second weight array at 0. -/
theorem down_0 (b : Fin 2) (s : Fin 2048) (h : Fin 2048) :
    Read.val_main_v11 (F := Ideal) x1 x3 x4 x5 (ix3 b s h)
      = ∑ k : Fin 4096, Spec.act (cHid x1) (cUp x3) (cUp x5) (0 : Fin 8) b s k * cDown x4 (0 : Fin 8) k h := by
  rw [Read.val_main_v11_apply]
  refine Finset.sum_congr rfl fun k _ => ?_
  rw [Read.val_main_v10_apply, Read.val_main_v9_apply]
  have e1 : Read.lidx_main_v11 (ix3 b s h) k = ix3 b s k := funext fun a => Fin.ext (by match a with | ⟨0, _⟩ => rfl | ⟨1, _⟩ => rfl | ⟨2, _⟩ => rfl)
  have e2 : Read.idx_main_v9 (Read.idx_main_v10 (Read.ridx_main_v11 (ix3 b s h) k)) = ix3 (0 : Fin 8) k h :=
    funext fun a => Fin.ext (by
      match a with
      | ⟨0, _⟩ => rfl
      | ⟨1, _⟩ => show (k.val * 2048 + h.val) / 2048 % 4096 = k.val; omega
      | ⟨2, _⟩ => show (k.val * 2048 + h.val) % 2048 = h.val; omega)
  rw [e1, e2, act_0]

/-- Expert 0's combine weight, broadcast along the hidden axis: the sum over the two selected slots of the indicator of
    "the slot selected expert 0" times the slot's routing weight. -/
theorem gate_0 (b : Fin 2) (s : Fin 2048) (h : Fin 2048) :
    Read.val_main_v18 (F := Ideal) x0 x2 (ix3 b s h) = Spec.gate (cSel x0) (cRou x2) (0 : Fin 8) b s := by
  rw [Read.val_main_v18_apply, Read.val_main_v17_apply, Read.val_main_v16_apply, Read.val_main_cst_0_apply, Ideal.ofBits_def, Ideal.ofBits_zero_f32, zero_add]
  unfold Spec.gate
  refine Finset.sum_congr rfl fun k _ => ?_
  rw [Read.val_main_v15_apply, Read.val_main_v14_apply, Read.val_main_v13_apply, Read.val_main_v12_apply, Read.val_main_c_apply]
  have e1 : Read.idx_main_v16 (Read.idx_main_v17 (Read.idx_main_v18 (ix3 b s h))) k = ix3 b s k := funext fun a => Fin.ext (by match a with | ⟨0, _⟩ => rfl | ⟨1, _⟩ => rfl | ⟨2, _⟩ => rfl)
  rw [e1]
  rfl

/-- Expert 0's term of the result at (b, s, h). -/
theorem term_0 (b : Fin 2) (s : Fin 2048) (h : Fin 2048) :
    Read.val_main_v19 (F := Ideal) x0 x1 x2 x3 x4 x5 (ix3 b s h)
      = Spec.gate (cSel x0) (cRou x2) (0 : Fin 8) b s * ∑ k : Fin 4096, Spec.act (cHid x1) (cUp x3) (cUp x5) (0 : Fin 8) b s k * cDown x4 (0 : Fin 8) k h := by
  rw [Read.val_main_v19_apply, gate_0, down_0]
  rfl

/-! ### Expert 1 -/

/-- Expert 1's first up-projection at (b, s, k): the slice of the first weight array at 1, contracted with the token. -/
theorem up1_1 (b : Fin 2) (s : Fin 2048) (k : Fin 4096) :
    Read.val_main_v23 (F := Ideal) x1 x3 (ix3 b s k) = Spec.up (cHid x1) (cUp x3) (1 : Fin 8) b s k := by
  rw [Read.val_main_v23_apply]
  unfold Spec.up
  refine Finset.sum_congr rfl fun j _ => ?_
  rw [Read.val_main_v22_apply, Read.val_main_v21_apply]
  have e1 : Read.lidx_main_v23 (ix3 b s k) j = ix3 b s j := funext fun a => Fin.ext (by match a with | ⟨0, _⟩ => rfl | ⟨1, _⟩ => rfl | ⟨2, _⟩ => rfl)
  have e2 : Read.idx_main_v21 (Read.idx_main_v22 (Read.ridx_main_v23 (ix3 b s k) j)) = ix3 (1 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 1's second up-projection at (b, s, k). -/
theorem up3_1 (b : Fin 2) (s : Fin 2048) (k : Fin 4096) :
    Read.val_main_v26 (F := Ideal) x1 x5 (ix3 b s k) = Spec.up (cHid x1) (cUp x5) (1 : Fin 8) b s k := by
  rw [Read.val_main_v26_apply]
  unfold Spec.up
  refine Finset.sum_congr rfl fun j _ => ?_
  rw [Read.val_main_v25_apply, Read.val_main_v24_apply]
  have e1 : Read.lidx_main_v26 (ix3 b s k) j = ix3 b s j := funext fun a => Fin.ext (by match a with | ⟨0, _⟩ => rfl | ⟨1, _⟩ => rfl | ⟨2, _⟩ => rfl)
  have e2 : Read.idx_main_v24 (Read.idx_main_v25 (Read.ridx_main_v26 (ix3 b s k) j)) = ix3 (1 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 1's gated activation at (b, s, k): h₁ · (1 / (1 + exp(−h₁))) · h₃ is silu(h₁) · h₃. -/
theorem act_1 (b : Fin 2) (s : Fin 2048) (k : Fin 4096) :
    Read.val_main_v28 (F := Ideal) x1 x3 x5 (ix3 b s k) = Spec.act (cHid x1) (cUp x3) (cUp x5) (1 : Fin 8) b s k := by
  rw [Read.val_main_v28_apply, Read.val_main_v27_apply, Read.val_main_call1_v5_apply, Read.val_main_call1_v4_apply, Read.val_main_call1_cst_0_apply,
    Read.val_main_call1_v3_apply, Read.val_main_call1_v2_apply, Read.val_main_call1_cst_apply, Read.val_main_call1_v1_apply, Read.val_main_call1_v0_apply,
    up1_1, up3_1]
  simp only [Ideal.mulf_def, Ideal.addf_def, Ideal.hostDivf_def, Ideal.hostUnary_exp_def, Ideal.hostNegf_def, Ideal.negf_def,
    Ideal.ofBits_def, ofBits_one]
  rfl

/-- Expert 1's down-projection at (b, s, h): the activation contracted with the slice of the second weight array at 1. -/
theorem down_1 (b : Fin 2) (s : Fin 2048) (h : Fin 2048) :
    Read.val_main_v31 (F := Ideal) x1 x3 x4 x5 (ix3 b s h)
      = ∑ k : Fin 4096, Spec.act (cHid x1) (cUp x3) (cUp x5) (1 : Fin 8) b s k * cDown x4 (1 : Fin 8) k h := by
  rw [Read.val_main_v31_apply]
  refine Finset.sum_congr rfl fun k _ => ?_
  rw [Read.val_main_v30_apply, Read.val_main_v29_apply]
  have e1 : Read.lidx_main_v31 (ix3 b s h) k = ix3 b s k := funext fun a => Fin.ext (by match a with | ⟨0, _⟩ => rfl | ⟨1, _⟩ => rfl | ⟨2, _⟩ => rfl)
  have e2 : Read.idx_main_v29 (Read.idx_main_v30 (Read.ridx_main_v31 (ix3 b s h) k)) = ix3 (1 : Fin 8) k h :=
    funext fun a => Fin.ext (by
      match a with
      | ⟨0, _⟩ => rfl
      | ⟨1, _⟩ => show (k.val * 2048 + h.val) / 2048 % 4096 = k.val; omega
      | ⟨2, _⟩ => show (k.val * 2048 + h.val) % 2048 = h.val; omega)
  rw [e1, e2, act_1]

/-- Expert 1's combine weight, broadcast along the hidden axis: the sum over the two selected slots of the indicator of
    "the slot selected expert 1" times the slot's routing weight. -/
theorem gate_1 (b : Fin 2) (s : Fin 2048) (h : Fin 2048) :
    Read.val_main_v38 (F := Ideal) x0 x2 (ix3 b s h) = Spec.gate (cSel x0) (cRou x2) (1 : Fin 8) b s := by
  rw [Read.val_main_v38_apply, Read.val_main_v37_apply, Read.val_main_v36_apply, Read.val_main_cst_2_apply, Ideal.ofBits_def, Ideal.ofBits_zero_f32, zero_add]
  unfold Spec.gate
  refine Finset.sum_congr rfl fun k _ => ?_
  rw [Read.val_main_v35_apply, Read.val_main_v34_apply, Read.val_main_v33_apply, Read.val_main_v32_apply, Read.val_main_c_1_apply]
  have e1 : Read.idx_main_v36 (Read.idx_main_v37 (Read.idx_main_v38 (ix3 b s h))) k = ix3 b s k := funext fun a => Fin.ext (by match a with | ⟨0, _⟩ => rfl | ⟨1, _⟩ => rfl | ⟨2, _⟩ => rfl)
  rw [e1]
  rfl

/-- Expert 1's term of the result at (b, s, h). -/
theorem term_1 (b : Fin 2) (s : Fin 2048) (h : Fin 2048) :
    Read.val_main_v39 (F := Ideal) x0 x1 x2 x3 x4 x5 (ix3 b s h)
      = Spec.gate (cSel x0) (cRou x2) (1 : Fin 8) b s * ∑ k : Fin 4096, Spec.act (cHid x1) (cUp x3) (cUp x5) (1 : Fin 8) b s k * cDown x4 (1 : Fin 8) k h := by
  rw [Read.val_main_v39_apply, gate_1, down_1]
  rfl

/-! ### Expert 2 -/

/-- Expert 2's first up-projection at (b, s, k): the slice of the first weight array at 2, contracted with the token. -/
theorem up1_2 (b : Fin 2) (s : Fin 2048) (k : Fin 4096) :
    Read.val_main_v43 (F := Ideal) x1 x3 (ix3 b s k) = Spec.up (cHid x1) (cUp x3) (2 : Fin 8) b s k := by
  rw [Read.val_main_v43_apply]
  unfold Spec.up
  refine Finset.sum_congr rfl fun j _ => ?_
  rw [Read.val_main_v42_apply, Read.val_main_v41_apply]
  have e1 : Read.lidx_main_v43 (ix3 b s k) j = ix3 b s j := funext fun a => Fin.ext (by match a with | ⟨0, _⟩ => rfl | ⟨1, _⟩ => rfl | ⟨2, _⟩ => rfl)
  have e2 : Read.idx_main_v41 (Read.idx_main_v42 (Read.ridx_main_v43 (ix3 b s k) j)) = ix3 (2 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 2's second up-projection at (b, s, k). -/
theorem up3_2 (b : Fin 2) (s : Fin 2048) (k : Fin 4096) :
    Read.val_main_v46 (F := Ideal) x1 x5 (ix3 b s k) = Spec.up (cHid x1) (cUp x5) (2 : Fin 8) b s k := by
  rw [Read.val_main_v46_apply]
  unfold Spec.up
  refine Finset.sum_congr rfl fun j _ => ?_
  rw [Read.val_main_v45_apply, Read.val_main_v44_apply]
  have e1 : Read.lidx_main_v46 (ix3 b s k) j = ix3 b s j := funext fun a => Fin.ext (by match a with | ⟨0, _⟩ => rfl | ⟨1, _⟩ => rfl | ⟨2, _⟩ => rfl)
  have e2 : Read.idx_main_v44 (Read.idx_main_v45 (Read.ridx_main_v46 (ix3 b s k) j)) = ix3 (2 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 2's gated activation at (b, s, k): h₁ · (1 / (1 + exp(−h₁))) · h₃ is silu(h₁) · h₃. -/
theorem act_2 (b : Fin 2) (s : Fin 2048) (k : Fin 4096) :
    Read.val_main_v48 (F := Ideal) x1 x3 x5 (ix3 b s k) = Spec.act (cHid x1) (cUp x3) (cUp x5) (2 : Fin 8) b s k := by
  rw [Read.val_main_v48_apply, Read.val_main_v47_apply, Read.val_main_call2_v5_apply, Read.val_main_call2_v4_apply, Read.val_main_call2_cst_0_apply,
    Read.val_main_call2_v3_apply, Read.val_main_call2_v2_apply, Read.val_main_call2_cst_apply, Read.val_main_call2_v1_apply, Read.val_main_call2_v0_apply,
    up1_2, up3_2]
  simp only [Ideal.mulf_def, Ideal.addf_def, Ideal.hostDivf_def, Ideal.hostUnary_exp_def, Ideal.hostNegf_def, Ideal.negf_def,
    Ideal.ofBits_def, ofBits_one]
  rfl

/-- Expert 2's down-projection at (b, s, h): the activation contracted with the slice of the second weight array at 2. -/
theorem down_2 (b : Fin 2) (s : Fin 2048) (h : Fin 2048) :
    Read.val_main_v51 (F := Ideal) x1 x3 x4 x5 (ix3 b s h)
      = ∑ k : Fin 4096, Spec.act (cHid x1) (cUp x3) (cUp x5) (2 : Fin 8) b s k * cDown x4 (2 : Fin 8) k h := by
  rw [Read.val_main_v51_apply]
  refine Finset.sum_congr rfl fun k _ => ?_
  rw [Read.val_main_v50_apply, Read.val_main_v49_apply]
  have e1 : Read.lidx_main_v51 (ix3 b s h) k = ix3 b s k := funext fun a => Fin.ext (by match a with | ⟨0, _⟩ => rfl | ⟨1, _⟩ => rfl | ⟨2, _⟩ => rfl)
  have e2 : Read.idx_main_v49 (Read.idx_main_v50 (Read.ridx_main_v51 (ix3 b s h) k)) = ix3 (2 : Fin 8) k h :=
    funext fun a => Fin.ext (by
      match a with
      | ⟨0, _⟩ => rfl
      | ⟨1, _⟩ => show (k.val * 2048 + h.val) / 2048 % 4096 = k.val; omega
      | ⟨2, _⟩ => show (k.val * 2048 + h.val) % 2048 = h.val; omega)
  rw [e1, e2, act_2]

/-- Expert 2's combine weight, broadcast along the hidden axis: the sum over the two selected slots of the indicator of
    "the slot selected expert 2" times the slot's routing weight. -/
theorem gate_2 (b : Fin 2) (s : Fin 2048) (h : Fin 2048) :
    Read.val_main_v58 (F := Ideal) x0 x2 (ix3 b s h) = Spec.gate (cSel x0) (cRou x2) (2 : Fin 8) b s := by
  rw [Read.val_main_v58_apply, Read.val_main_v57_apply, Read.val_main_v56_apply, Read.val_main_cst_4_apply, Ideal.ofBits_def, Ideal.ofBits_zero_f32, zero_add]
  unfold Spec.gate
  refine Finset.sum_congr rfl fun k _ => ?_
  rw [Read.val_main_v55_apply, Read.val_main_v54_apply, Read.val_main_v53_apply, Read.val_main_v52_apply, Read.val_main_c_3_apply]
  have e1 : Read.idx_main_v56 (Read.idx_main_v57 (Read.idx_main_v58 (ix3 b s h))) k = ix3 b s k := funext fun a => Fin.ext (by match a with | ⟨0, _⟩ => rfl | ⟨1, _⟩ => rfl | ⟨2, _⟩ => rfl)
  rw [e1]
  rfl

/-- Expert 2's term of the result at (b, s, h). -/
theorem term_2 (b : Fin 2) (s : Fin 2048) (h : Fin 2048) :
    Read.val_main_v59 (F := Ideal) x0 x1 x2 x3 x4 x5 (ix3 b s h)
      = Spec.gate (cSel x0) (cRou x2) (2 : Fin 8) b s * ∑ k : Fin 4096, Spec.act (cHid x1) (cUp x3) (cUp x5) (2 : Fin 8) b s k * cDown x4 (2 : Fin 8) k h := by
  rw [Read.val_main_v59_apply, gate_2, down_2]
  rfl

/-! ### Expert 3 -/

/-- Expert 3's first up-projection at (b, s, k): the slice of the first weight array at 3, contracted with the token. -/
theorem up1_3 (b : Fin 2) (s : Fin 2048) (k : Fin 4096) :
    Read.val_main_v63 (F := Ideal) x1 x3 (ix3 b s k) = Spec.up (cHid x1) (cUp x3) (3 : Fin 8) b s k := by
  rw [Read.val_main_v63_apply]
  unfold Spec.up
  refine Finset.sum_congr rfl fun j _ => ?_
  rw [Read.val_main_v62_apply, Read.val_main_v61_apply]
  have e1 : Read.lidx_main_v63 (ix3 b s k) j = ix3 b s j := funext fun a => Fin.ext (by match a with | ⟨0, _⟩ => rfl | ⟨1, _⟩ => rfl | ⟨2, _⟩ => rfl)
  have e2 : Read.idx_main_v61 (Read.idx_main_v62 (Read.ridx_main_v63 (ix3 b s k) j)) = ix3 (3 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 3's second up-projection at (b, s, k). -/
theorem up3_3 (b : Fin 2) (s : Fin 2048) (k : Fin 4096) :
    Read.val_main_v66 (F := Ideal) x1 x5 (ix3 b s k) = Spec.up (cHid x1) (cUp x5) (3 : Fin 8) b s k := by
  rw [Read.val_main_v66_apply]
  unfold Spec.up
  refine Finset.sum_congr rfl fun j _ => ?_
  rw [Read.val_main_v65_apply, Read.val_main_v64_apply]
  have e1 : Read.lidx_main_v66 (ix3 b s k) j = ix3 b s j := funext fun a => Fin.ext (by match a with | ⟨0, _⟩ => rfl | ⟨1, _⟩ => rfl | ⟨2, _⟩ => rfl)
  have e2 : Read.idx_main_v64 (Read.idx_main_v65 (Read.ridx_main_v66 (ix3 b s k) j)) = ix3 (3 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 3's gated activation at (b, s, k): h₁ · (1 / (1 + exp(−h₁))) · h₃ is silu(h₁) · h₃. -/
theorem act_3 (b : Fin 2) (s : Fin 2048) (k : Fin 4096) :
    Read.val_main_v68 (F := Ideal) x1 x3 x5 (ix3 b s k) = Spec.act (cHid x1) (cUp x3) (cUp x5) (3 : Fin 8) b s k := by
  rw [Read.val_main_v68_apply, Read.val_main_v67_apply, Read.val_main_call3_v5_apply, Read.val_main_call3_v4_apply, Read.val_main_call3_cst_0_apply,
    Read.val_main_call3_v3_apply, Read.val_main_call3_v2_apply, Read.val_main_call3_cst_apply, Read.val_main_call3_v1_apply, Read.val_main_call3_v0_apply,
    up1_3, up3_3]
  simp only [Ideal.mulf_def, Ideal.addf_def, Ideal.hostDivf_def, Ideal.hostUnary_exp_def, Ideal.hostNegf_def, Ideal.negf_def,
    Ideal.ofBits_def, ofBits_one]
  rfl

/-- Expert 3's down-projection at (b, s, h): the activation contracted with the slice of the second weight array at 3. -/
theorem down_3 (b : Fin 2) (s : Fin 2048) (h : Fin 2048) :
    Read.val_main_v71 (F := Ideal) x1 x3 x4 x5 (ix3 b s h)
      = ∑ k : Fin 4096, Spec.act (cHid x1) (cUp x3) (cUp x5) (3 : Fin 8) b s k * cDown x4 (3 : Fin 8) k h := by
  rw [Read.val_main_v71_apply]
  refine Finset.sum_congr rfl fun k _ => ?_
  rw [Read.val_main_v70_apply, Read.val_main_v69_apply]
  have e1 : Read.lidx_main_v71 (ix3 b s h) k = ix3 b s k := funext fun a => Fin.ext (by match a with | ⟨0, _⟩ => rfl | ⟨1, _⟩ => rfl | ⟨2, _⟩ => rfl)
  have e2 : Read.idx_main_v69 (Read.idx_main_v70 (Read.ridx_main_v71 (ix3 b s h) k)) = ix3 (3 : Fin 8) k h :=
    funext fun a => Fin.ext (by
      match a with
      | ⟨0, _⟩ => rfl
      | ⟨1, _⟩ => show (k.val * 2048 + h.val) / 2048 % 4096 = k.val; omega
      | ⟨2, _⟩ => show (k.val * 2048 + h.val) % 2048 = h.val; omega)
  rw [e1, e2, act_3]

/-- Expert 3's combine weight, broadcast along the hidden axis: the sum over the two selected slots of the indicator of
    "the slot selected expert 3" times the slot's routing weight. -/
theorem gate_3 (b : Fin 2) (s : Fin 2048) (h : Fin 2048) :
    Read.val_main_v78 (F := Ideal) x0 x2 (ix3 b s h) = Spec.gate (cSel x0) (cRou x2) (3 : Fin 8) b s := by
  rw [Read.val_main_v78_apply, Read.val_main_v77_apply, Read.val_main_v76_apply, Read.val_main_cst_6_apply, Ideal.ofBits_def, Ideal.ofBits_zero_f32, zero_add]
  unfold Spec.gate
  refine Finset.sum_congr rfl fun k _ => ?_
  rw [Read.val_main_v75_apply, Read.val_main_v74_apply, Read.val_main_v73_apply, Read.val_main_v72_apply, Read.val_main_c_5_apply]
  have e1 : Read.idx_main_v76 (Read.idx_main_v77 (Read.idx_main_v78 (ix3 b s h))) k = ix3 b s k := funext fun a => Fin.ext (by match a with | ⟨0, _⟩ => rfl | ⟨1, _⟩ => rfl | ⟨2, _⟩ => rfl)
  rw [e1]
  rfl

/-- Expert 3's term of the result at (b, s, h). -/
theorem term_3 (b : Fin 2) (s : Fin 2048) (h : Fin 2048) :
    Read.val_main_v79 (F := Ideal) x0 x1 x2 x3 x4 x5 (ix3 b s h)
      = Spec.gate (cSel x0) (cRou x2) (3 : Fin 8) b s * ∑ k : Fin 4096, Spec.act (cHid x1) (cUp x3) (cUp x5) (3 : Fin 8) b s k * cDown x4 (3 : Fin 8) k h := by
  rw [Read.val_main_v79_apply, gate_3, down_3]
  rfl

/-! ### Expert 4 -/

/-- Expert 4's first up-projection at (b, s, k): the slice of the first weight array at 4, contracted with the token. -/
theorem up1_4 (b : Fin 2) (s : Fin 2048) (k : Fin 4096) :
    Read.val_main_v83 (F := Ideal) x1 x3 (ix3 b s k) = Spec.up (cHid x1) (cUp x3) (4 : Fin 8) b s k := by
  rw [Read.val_main_v83_apply]
  unfold Spec.up
  refine Finset.sum_congr rfl fun j _ => ?_
  rw [Read.val_main_v82_apply, Read.val_main_v81_apply]
  have e1 : Read.lidx_main_v83 (ix3 b s k) j = ix3 b s j := funext fun a => Fin.ext (by match a with | ⟨0, _⟩ => rfl | ⟨1, _⟩ => rfl | ⟨2, _⟩ => rfl)
  have e2 : Read.idx_main_v81 (Read.idx_main_v82 (Read.ridx_main_v83 (ix3 b s k) j)) = ix3 (4 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 4's second up-projection at (b, s, k). -/
theorem up3_4 (b : Fin 2) (s : Fin 2048) (k : Fin 4096) :
    Read.val_main_v86 (F := Ideal) x1 x5 (ix3 b s k) = Spec.up (cHid x1) (cUp x5) (4 : Fin 8) b s k := by
  rw [Read.val_main_v86_apply]
  unfold Spec.up
  refine Finset.sum_congr rfl fun j _ => ?_
  rw [Read.val_main_v85_apply, Read.val_main_v84_apply]
  have e1 : Read.lidx_main_v86 (ix3 b s k) j = ix3 b s j := funext fun a => Fin.ext (by match a with | ⟨0, _⟩ => rfl | ⟨1, _⟩ => rfl | ⟨2, _⟩ => rfl)
  have e2 : Read.idx_main_v84 (Read.idx_main_v85 (Read.ridx_main_v86 (ix3 b s k) j)) = ix3 (4 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 4's gated activation at (b, s, k): h₁ · (1 / (1 + exp(−h₁))) · h₃ is silu(h₁) · h₃. -/
theorem act_4 (b : Fin 2) (s : Fin 2048) (k : Fin 4096) :
    Read.val_main_v88 (F := Ideal) x1 x3 x5 (ix3 b s k) = Spec.act (cHid x1) (cUp x3) (cUp x5) (4 : Fin 8) b s k := by
  rw [Read.val_main_v88_apply, Read.val_main_v87_apply, Read.val_main_call4_v5_apply, Read.val_main_call4_v4_apply, Read.val_main_call4_cst_0_apply,
    Read.val_main_call4_v3_apply, Read.val_main_call4_v2_apply, Read.val_main_call4_cst_apply, Read.val_main_call4_v1_apply, Read.val_main_call4_v0_apply,
    up1_4, up3_4]
  simp only [Ideal.mulf_def, Ideal.addf_def, Ideal.hostDivf_def, Ideal.hostUnary_exp_def, Ideal.hostNegf_def, Ideal.negf_def,
    Ideal.ofBits_def, ofBits_one]
  rfl

/-- Expert 4's down-projection at (b, s, h): the activation contracted with the slice of the second weight array at 4. -/
theorem down_4 (b : Fin 2) (s : Fin 2048) (h : Fin 2048) :
    Read.val_main_v91 (F := Ideal) x1 x3 x4 x5 (ix3 b s h)
      = ∑ k : Fin 4096, Spec.act (cHid x1) (cUp x3) (cUp x5) (4 : Fin 8) b s k * cDown x4 (4 : Fin 8) k h := by
  rw [Read.val_main_v91_apply]
  refine Finset.sum_congr rfl fun k _ => ?_
  rw [Read.val_main_v90_apply, Read.val_main_v89_apply]
  have e1 : Read.lidx_main_v91 (ix3 b s h) k = ix3 b s k := funext fun a => Fin.ext (by match a with | ⟨0, _⟩ => rfl | ⟨1, _⟩ => rfl | ⟨2, _⟩ => rfl)
  have e2 : Read.idx_main_v89 (Read.idx_main_v90 (Read.ridx_main_v91 (ix3 b s h) k)) = ix3 (4 : Fin 8) k h :=
    funext fun a => Fin.ext (by
      match a with
      | ⟨0, _⟩ => rfl
      | ⟨1, _⟩ => show (k.val * 2048 + h.val) / 2048 % 4096 = k.val; omega
      | ⟨2, _⟩ => show (k.val * 2048 + h.val) % 2048 = h.val; omega)
  rw [e1, e2, act_4]

/-- Expert 4's combine weight, broadcast along the hidden axis: the sum over the two selected slots of the indicator of
    "the slot selected expert 4" times the slot's routing weight. -/
theorem gate_4 (b : Fin 2) (s : Fin 2048) (h : Fin 2048) :
    Read.val_main_v98 (F := Ideal) x0 x2 (ix3 b s h) = Spec.gate (cSel x0) (cRou x2) (4 : Fin 8) b s := by
  rw [Read.val_main_v98_apply, Read.val_main_v97_apply, Read.val_main_v96_apply, Read.val_main_cst_8_apply, Ideal.ofBits_def, Ideal.ofBits_zero_f32, zero_add]
  unfold Spec.gate
  refine Finset.sum_congr rfl fun k _ => ?_
  rw [Read.val_main_v95_apply, Read.val_main_v94_apply, Read.val_main_v93_apply, Read.val_main_v92_apply, Read.val_main_c_7_apply]
  have e1 : Read.idx_main_v96 (Read.idx_main_v97 (Read.idx_main_v98 (ix3 b s h))) k = ix3 b s k := funext fun a => Fin.ext (by match a with | ⟨0, _⟩ => rfl | ⟨1, _⟩ => rfl | ⟨2, _⟩ => rfl)
  rw [e1]
  rfl

/-- Expert 4's term of the result at (b, s, h). -/
theorem term_4 (b : Fin 2) (s : Fin 2048) (h : Fin 2048) :
    Read.val_main_v99 (F := Ideal) x0 x1 x2 x3 x4 x5 (ix3 b s h)
      = Spec.gate (cSel x0) (cRou x2) (4 : Fin 8) b s * ∑ k : Fin 4096, Spec.act (cHid x1) (cUp x3) (cUp x5) (4 : Fin 8) b s k * cDown x4 (4 : Fin 8) k h := by
  rw [Read.val_main_v99_apply, gate_4, down_4]
  rfl

/-! ### Expert 5 -/

/-- Expert 5's first up-projection at (b, s, k): the slice of the first weight array at 5, contracted with the token. -/
theorem up1_5 (b : Fin 2) (s : Fin 2048) (k : Fin 4096) :
    Read.val_main_v103 (F := Ideal) x1 x3 (ix3 b s k) = Spec.up (cHid x1) (cUp x3) (5 : Fin 8) b s k := by
  rw [Read.val_main_v103_apply]
  unfold Spec.up
  refine Finset.sum_congr rfl fun j _ => ?_
  rw [Read.val_main_v102_apply, Read.val_main_v101_apply]
  have e1 : Read.lidx_main_v103 (ix3 b s k) j = ix3 b s j := funext fun a => Fin.ext (by match a with | ⟨0, _⟩ => rfl | ⟨1, _⟩ => rfl | ⟨2, _⟩ => rfl)
  have e2 : Read.idx_main_v101 (Read.idx_main_v102 (Read.ridx_main_v103 (ix3 b s k) j)) = ix3 (5 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 5's second up-projection at (b, s, k). -/
theorem up3_5 (b : Fin 2) (s : Fin 2048) (k : Fin 4096) :
    Read.val_main_v106 (F := Ideal) x1 x5 (ix3 b s k) = Spec.up (cHid x1) (cUp x5) (5 : Fin 8) b s k := by
  rw [Read.val_main_v106_apply]
  unfold Spec.up
  refine Finset.sum_congr rfl fun j _ => ?_
  rw [Read.val_main_v105_apply, Read.val_main_v104_apply]
  have e1 : Read.lidx_main_v106 (ix3 b s k) j = ix3 b s j := funext fun a => Fin.ext (by match a with | ⟨0, _⟩ => rfl | ⟨1, _⟩ => rfl | ⟨2, _⟩ => rfl)
  have e2 : Read.idx_main_v104 (Read.idx_main_v105 (Read.ridx_main_v106 (ix3 b s k) j)) = ix3 (5 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 5's gated activation at (b, s, k): h₁ · (1 / (1 + exp(−h₁))) · h₃ is silu(h₁) · h₃. -/
theorem act_5 (b : Fin 2) (s : Fin 2048) (k : Fin 4096) :
    Read.val_main_v108 (F := Ideal) x1 x3 x5 (ix3 b s k) = Spec.act (cHid x1) (cUp x3) (cUp x5) (5 : Fin 8) b s k := by
  rw [Read.val_main_v108_apply, Read.val_main_v107_apply, Read.val_main_call5_v5_apply, Read.val_main_call5_v4_apply, Read.val_main_call5_cst_0_apply,
    Read.val_main_call5_v3_apply, Read.val_main_call5_v2_apply, Read.val_main_call5_cst_apply, Read.val_main_call5_v1_apply, Read.val_main_call5_v0_apply,
    up1_5, up3_5]
  simp only [Ideal.mulf_def, Ideal.addf_def, Ideal.hostDivf_def, Ideal.hostUnary_exp_def, Ideal.hostNegf_def, Ideal.negf_def,
    Ideal.ofBits_def, ofBits_one]
  rfl

/-- Expert 5's down-projection at (b, s, h): the activation contracted with the slice of the second weight array at 5. -/
theorem down_5 (b : Fin 2) (s : Fin 2048) (h : Fin 2048) :
    Read.val_main_v111 (F := Ideal) x1 x3 x4 x5 (ix3 b s h)
      = ∑ k : Fin 4096, Spec.act (cHid x1) (cUp x3) (cUp x5) (5 : Fin 8) b s k * cDown x4 (5 : Fin 8) k h := by
  rw [Read.val_main_v111_apply]
  refine Finset.sum_congr rfl fun k _ => ?_
  rw [Read.val_main_v110_apply, Read.val_main_v109_apply]
  have e1 : Read.lidx_main_v111 (ix3 b s h) k = ix3 b s k := funext fun a => Fin.ext (by match a with | ⟨0, _⟩ => rfl | ⟨1, _⟩ => rfl | ⟨2, _⟩ => rfl)
  have e2 : Read.idx_main_v109 (Read.idx_main_v110 (Read.ridx_main_v111 (ix3 b s h) k)) = ix3 (5 : Fin 8) k h :=
    funext fun a => Fin.ext (by
      match a with
      | ⟨0, _⟩ => rfl
      | ⟨1, _⟩ => show (k.val * 2048 + h.val) / 2048 % 4096 = k.val; omega
      | ⟨2, _⟩ => show (k.val * 2048 + h.val) % 2048 = h.val; omega)
  rw [e1, e2, act_5]

/-- Expert 5's combine weight, broadcast along the hidden axis: the sum over the two selected slots of the indicator of
    "the slot selected expert 5" times the slot's routing weight. -/
theorem gate_5 (b : Fin 2) (s : Fin 2048) (h : Fin 2048) :
    Read.val_main_v118 (F := Ideal) x0 x2 (ix3 b s h) = Spec.gate (cSel x0) (cRou x2) (5 : Fin 8) b s := by
  rw [Read.val_main_v118_apply, Read.val_main_v117_apply, Read.val_main_v116_apply, Read.val_main_cst_10_apply, Ideal.ofBits_def, Ideal.ofBits_zero_f32, zero_add]
  unfold Spec.gate
  refine Finset.sum_congr rfl fun k _ => ?_
  rw [Read.val_main_v115_apply, Read.val_main_v114_apply, Read.val_main_v113_apply, Read.val_main_v112_apply, Read.val_main_c_9_apply]
  have e1 : Read.idx_main_v116 (Read.idx_main_v117 (Read.idx_main_v118 (ix3 b s h))) k = ix3 b s k := funext fun a => Fin.ext (by match a with | ⟨0, _⟩ => rfl | ⟨1, _⟩ => rfl | ⟨2, _⟩ => rfl)
  rw [e1]
  rfl

/-- Expert 5's term of the result at (b, s, h). -/
theorem term_5 (b : Fin 2) (s : Fin 2048) (h : Fin 2048) :
    Read.val_main_v119 (F := Ideal) x0 x1 x2 x3 x4 x5 (ix3 b s h)
      = Spec.gate (cSel x0) (cRou x2) (5 : Fin 8) b s * ∑ k : Fin 4096, Spec.act (cHid x1) (cUp x3) (cUp x5) (5 : Fin 8) b s k * cDown x4 (5 : Fin 8) k h := by
  rw [Read.val_main_v119_apply, gate_5, down_5]
  rfl

/-! ### Expert 6 -/

/-- Expert 6's first up-projection at (b, s, k): the slice of the first weight array at 6, contracted with the token. -/
theorem up1_6 (b : Fin 2) (s : Fin 2048) (k : Fin 4096) :
    Read.val_main_v123 (F := Ideal) x1 x3 (ix3 b s k) = Spec.up (cHid x1) (cUp x3) (6 : Fin 8) b s k := by
  rw [Read.val_main_v123_apply]
  unfold Spec.up
  refine Finset.sum_congr rfl fun j _ => ?_
  rw [Read.val_main_v122_apply, Read.val_main_v121_apply]
  have e1 : Read.lidx_main_v123 (ix3 b s k) j = ix3 b s j := funext fun a => Fin.ext (by match a with | ⟨0, _⟩ => rfl | ⟨1, _⟩ => rfl | ⟨2, _⟩ => rfl)
  have e2 : Read.idx_main_v121 (Read.idx_main_v122 (Read.ridx_main_v123 (ix3 b s k) j)) = ix3 (6 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 6's second up-projection at (b, s, k). -/
theorem up3_6 (b : Fin 2) (s : Fin 2048) (k : Fin 4096) :
    Read.val_main_v126 (F := Ideal) x1 x5 (ix3 b s k) = Spec.up (cHid x1) (cUp x5) (6 : Fin 8) b s k := by
  rw [Read.val_main_v126_apply]
  unfold Spec.up
  refine Finset.sum_congr rfl fun j _ => ?_
  rw [Read.val_main_v125_apply, Read.val_main_v124_apply]
  have e1 : Read.lidx_main_v126 (ix3 b s k) j = ix3 b s j := funext fun a => Fin.ext (by match a with | ⟨0, _⟩ => rfl | ⟨1, _⟩ => rfl | ⟨2, _⟩ => rfl)
  have e2 : Read.idx_main_v124 (Read.idx_main_v125 (Read.ridx_main_v126 (ix3 b s k) j)) = ix3 (6 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 6's gated activation at (b, s, k): h₁ · (1 / (1 + exp(−h₁))) · h₃ is silu(h₁) · h₃. -/
theorem act_6 (b : Fin 2) (s : Fin 2048) (k : Fin 4096) :
    Read.val_main_v128 (F := Ideal) x1 x3 x5 (ix3 b s k) = Spec.act (cHid x1) (cUp x3) (cUp x5) (6 : Fin 8) b s k := by
  rw [Read.val_main_v128_apply, Read.val_main_v127_apply, Read.val_main_call6_v5_apply, Read.val_main_call6_v4_apply, Read.val_main_call6_cst_0_apply,
    Read.val_main_call6_v3_apply, Read.val_main_call6_v2_apply, Read.val_main_call6_cst_apply, Read.val_main_call6_v1_apply, Read.val_main_call6_v0_apply,
    up1_6, up3_6]
  simp only [Ideal.mulf_def, Ideal.addf_def, Ideal.hostDivf_def, Ideal.hostUnary_exp_def, Ideal.hostNegf_def, Ideal.negf_def,
    Ideal.ofBits_def, ofBits_one]
  rfl

/-- Expert 6's down-projection at (b, s, h): the activation contracted with the slice of the second weight array at 6. -/
theorem down_6 (b : Fin 2) (s : Fin 2048) (h : Fin 2048) :
    Read.val_main_v131 (F := Ideal) x1 x3 x4 x5 (ix3 b s h)
      = ∑ k : Fin 4096, Spec.act (cHid x1) (cUp x3) (cUp x5) (6 : Fin 8) b s k * cDown x4 (6 : Fin 8) k h := by
  rw [Read.val_main_v131_apply]
  refine Finset.sum_congr rfl fun k _ => ?_
  rw [Read.val_main_v130_apply, Read.val_main_v129_apply]
  have e1 : Read.lidx_main_v131 (ix3 b s h) k = ix3 b s k := funext fun a => Fin.ext (by match a with | ⟨0, _⟩ => rfl | ⟨1, _⟩ => rfl | ⟨2, _⟩ => rfl)
  have e2 : Read.idx_main_v129 (Read.idx_main_v130 (Read.ridx_main_v131 (ix3 b s h) k)) = ix3 (6 : Fin 8) k h :=
    funext fun a => Fin.ext (by
      match a with
      | ⟨0, _⟩ => rfl
      | ⟨1, _⟩ => show (k.val * 2048 + h.val) / 2048 % 4096 = k.val; omega
      | ⟨2, _⟩ => show (k.val * 2048 + h.val) % 2048 = h.val; omega)
  rw [e1, e2, act_6]

/-- Expert 6's combine weight, broadcast along the hidden axis: the sum over the two selected slots of the indicator of
    "the slot selected expert 6" times the slot's routing weight. -/
theorem gate_6 (b : Fin 2) (s : Fin 2048) (h : Fin 2048) :
    Read.val_main_v138 (F := Ideal) x0 x2 (ix3 b s h) = Spec.gate (cSel x0) (cRou x2) (6 : Fin 8) b s := by
  rw [Read.val_main_v138_apply, Read.val_main_v137_apply, Read.val_main_v136_apply, Read.val_main_cst_12_apply, Ideal.ofBits_def, Ideal.ofBits_zero_f32, zero_add]
  unfold Spec.gate
  refine Finset.sum_congr rfl fun k _ => ?_
  rw [Read.val_main_v135_apply, Read.val_main_v134_apply, Read.val_main_v133_apply, Read.val_main_v132_apply, Read.val_main_c_11_apply]
  have e1 : Read.idx_main_v136 (Read.idx_main_v137 (Read.idx_main_v138 (ix3 b s h))) k = ix3 b s k := funext fun a => Fin.ext (by match a with | ⟨0, _⟩ => rfl | ⟨1, _⟩ => rfl | ⟨2, _⟩ => rfl)
  rw [e1]
  rfl

/-- Expert 6's term of the result at (b, s, h). -/
theorem term_6 (b : Fin 2) (s : Fin 2048) (h : Fin 2048) :
    Read.val_main_v139 (F := Ideal) x0 x1 x2 x3 x4 x5 (ix3 b s h)
      = Spec.gate (cSel x0) (cRou x2) (6 : Fin 8) b s * ∑ k : Fin 4096, Spec.act (cHid x1) (cUp x3) (cUp x5) (6 : Fin 8) b s k * cDown x4 (6 : Fin 8) k h := by
  rw [Read.val_main_v139_apply, gate_6, down_6]
  rfl

/-! ### Expert 7 -/

/-- Expert 7's first up-projection at (b, s, k): the slice of the first weight array at 7, contracted with the token. -/
theorem up1_7 (b : Fin 2) (s : Fin 2048) (k : Fin 4096) :
    Read.val_main_v143 (F := Ideal) x1 x3 (ix3 b s k) = Spec.up (cHid x1) (cUp x3) (7 : Fin 8) b s k := by
  rw [Read.val_main_v143_apply]
  unfold Spec.up
  refine Finset.sum_congr rfl fun j _ => ?_
  rw [Read.val_main_v142_apply, Read.val_main_v141_apply]
  have e1 : Read.lidx_main_v143 (ix3 b s k) j = ix3 b s j := funext fun a => Fin.ext (by match a with | ⟨0, _⟩ => rfl | ⟨1, _⟩ => rfl | ⟨2, _⟩ => rfl)
  have e2 : Read.idx_main_v141 (Read.idx_main_v142 (Read.ridx_main_v143 (ix3 b s k) j)) = ix3 (7 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 7's second up-projection at (b, s, k). -/
theorem up3_7 (b : Fin 2) (s : Fin 2048) (k : Fin 4096) :
    Read.val_main_v146 (F := Ideal) x1 x5 (ix3 b s k) = Spec.up (cHid x1) (cUp x5) (7 : Fin 8) b s k := by
  rw [Read.val_main_v146_apply]
  unfold Spec.up
  refine Finset.sum_congr rfl fun j _ => ?_
  rw [Read.val_main_v145_apply, Read.val_main_v144_apply]
  have e1 : Read.lidx_main_v146 (ix3 b s k) j = ix3 b s j := funext fun a => Fin.ext (by match a with | ⟨0, _⟩ => rfl | ⟨1, _⟩ => rfl | ⟨2, _⟩ => rfl)
  have e2 : Read.idx_main_v144 (Read.idx_main_v145 (Read.ridx_main_v146 (ix3 b s k) j)) = ix3 (7 : Fin 8) j k :=
    funext fun a => Fin.ext (by
      match a with
      | ⟨0, _⟩ => rfl
      | ⟨1, _⟩ => show (j.val * 4096 + k.val) / 4096 % 2048 = j.val; omega
      | ⟨2, _⟩ => show (j.val * 4096 + k.val) % 4096 = k.val; omega)
  rw [e1, e2]

/-- Expert 7's gated activation at (b, s, k): h₁ · (1 / (1 + exp(−h₁))) · h₃ is silu(h₁) · h₃. -/
theorem act_7 (b : Fin 2) (s : Fin 2048) (k : Fin 4096) :
    Read.val_main_v148 (F := Ideal) x1 x3 x5 (ix3 b s k) = Spec.act (cHid x1) (cUp x3) (cUp x5) (7 : Fin 8) b s k := by
  rw [Read.val_main_v148_apply, Read.val_main_v147_apply, Read.val_main_call7_v5_apply, Read.val_main_call7_v4_apply, Read.val_main_call7_cst_0_apply,
    Read.val_main_call7_v3_apply, Read.val_main_call7_v2_apply, Read.val_main_call7_cst_apply, Read.val_main_call7_v1_apply, Read.val_main_call7_v0_apply,
    up1_7, up3_7]
  simp only [Ideal.mulf_def, Ideal.addf_def, Ideal.hostDivf_def, Ideal.hostUnary_exp_def, Ideal.hostNegf_def, Ideal.negf_def,
    Ideal.ofBits_def, ofBits_one]
  rfl

/-- Expert 7's down-projection at (b, s, h): the activation contracted with the slice of the second weight array at 7. -/
theorem down_7 (b : Fin 2) (s : Fin 2048) (h : Fin 2048) :
    Read.val_main_v151 (F := Ideal) x1 x3 x4 x5 (ix3 b s h)
      = ∑ k : Fin 4096, Spec.act (cHid x1) (cUp x3) (cUp x5) (7 : Fin 8) b s k * cDown x4 (7 : Fin 8) k h := by
  rw [Read.val_main_v151_apply]
  refine Finset.sum_congr rfl fun k _ => ?_
  rw [Read.val_main_v150_apply, Read.val_main_v149_apply]
  have e1 : Read.lidx_main_v151 (ix3 b s h) k = ix3 b s k := funext fun a => Fin.ext (by match a with | ⟨0, _⟩ => rfl | ⟨1, _⟩ => rfl | ⟨2, _⟩ => rfl)
  have e2 : Read.idx_main_v149 (Read.idx_main_v150 (Read.ridx_main_v151 (ix3 b s h) k)) = ix3 (7 : Fin 8) k h :=
    funext fun a => Fin.ext (by
      match a with
      | ⟨0, _⟩ => rfl
      | ⟨1, _⟩ => show (k.val * 2048 + h.val) / 2048 % 4096 = k.val; omega
      | ⟨2, _⟩ => show (k.val * 2048 + h.val) % 2048 = h.val; omega)
  rw [e1, e2, act_7]

/-- Expert 7's combine weight, broadcast along the hidden axis: the sum over the two selected slots of the indicator of
    "the slot selected expert 7" times the slot's routing weight. -/
theorem gate_7 (b : Fin 2) (s : Fin 2048) (h : Fin 2048) :
    Read.val_main_v158 (F := Ideal) x0 x2 (ix3 b s h) = Spec.gate (cSel x0) (cRou x2) (7 : Fin 8) b s := by
  rw [Read.val_main_v158_apply, Read.val_main_v157_apply, Read.val_main_v156_apply, Read.val_main_cst_14_apply, Ideal.ofBits_def, Ideal.ofBits_zero_f32, zero_add]
  unfold Spec.gate
  refine Finset.sum_congr rfl fun k _ => ?_
  rw [Read.val_main_v155_apply, Read.val_main_v154_apply, Read.val_main_v153_apply, Read.val_main_v152_apply, Read.val_main_c_13_apply]
  have e1 : Read.idx_main_v156 (Read.idx_main_v157 (Read.idx_main_v158 (ix3 b s h))) k = ix3 b s k := funext fun a => Fin.ext (by match a with | ⟨0, _⟩ => rfl | ⟨1, _⟩ => rfl | ⟨2, _⟩ => rfl)
  rw [e1]
  rfl

/-- Expert 7's term of the result at (b, s, h). -/
theorem term_7 (b : Fin 2) (s : Fin 2048) (h : Fin 2048) :
    Read.val_main_v159 (F := Ideal) x0 x1 x2 x3 x4 x5 (ix3 b s h)
      = Spec.gate (cSel x0) (cRou x2) (7 : Fin 8) b s * ∑ k : Fin 4096, Spec.act (cHid x1) (cUp x3) (cUp x5) (7 : Fin 8) b s k * cDown x4 (7 : Fin 8) k h := by
  rw [Read.val_main_v159_apply, gate_7, down_7]
  rfl

end Experts

/-- Entry (b, s, h) of the reference's result: the eight experts' weighted down-projections added in order from zero. -/
theorem val_eq (x0 : (⟨S2x2048x2, .i32⟩ : BufTy).Contents (Elt Ideal)) (x1 : (⟨S2x2048x2048, .f32⟩ : BufTy).Contents (Elt Ideal))
    (x2 : (⟨S2x2048x2, .f32⟩ : BufTy).Contents (Elt Ideal)) (x3 : (⟨S8x2048x4096, .f32⟩ : BufTy).Contents (Elt Ideal))
    (x4 : (⟨S8x4096x2048, .f32⟩ : BufTy).Contents (Elt Ideal)) (x5 : (⟨S8x2048x4096, .f32⟩ : BufTy).Contents (Elt Ideal))
    (b : Fin 2) (s : Fin 2048) (h : Fin 2048) :
    Cert.ReferenceIdeal.Read.val_main_v160 (F := Ideal) x0 x1 x2 x3 x4 x5 (ix3 b s h)
      = Cert.Spec.refV (fun b s k => x0 (ix3 b s k)) (fun b s j => x1 (ix3 b s j)) (fun b s k => x2 (ix3 b s k))
          (fun e j k => x3 (ix3 e j k)) (fun e k h => x4 (ix3 e k h)) (fun e j k => x5 (ix3 e j k)) b s h := by
  rw [Read.val_main_v160_apply, Read.val_main_v140_apply, Read.val_main_v120_apply, Read.val_main_v100_apply, Read.val_main_v80_apply, Read.val_main_v60_apply, Read.val_main_v40_apply, Read.val_main_v20_apply,
    Read.val_main_v0_apply, Read.val_main_cst_apply,
    term_7, term_6, term_5, term_4, term_3, term_2, term_1, term_0]
  simp only [Ideal.addf_def, Ideal.ofBits_def, Ideal.ofBits_zero_f32, zero_add]
  unfold Spec.refV
  rw [Fin.sum_univ_eight]

end Cert.RefValue

end
-- ==== Proof.BodyValue.lean ====
/-
  One grid point of the kernel body, as values: what each control case leaves in the output block, and the
  accumulation step read at an entry (three matrix products as plain sums over the extended reals).
-/
import proofs.«121479_j17446157156565_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.BodyValue

open Cert.KernelIdeal Cert.KernelIdeal.Gen Idealize.ShloMosaic.ValueIdx

section anyF
variable {F : FTy → Type} [FloatOps F]

/-- Every access of the body starts at the block's origin: the two-axis zero offsets. -/
theorem zero_offset2 : (![0, 0] : Fin 2 → Nat) = fun _ => 0 := funext fun a => by fin_cases a <;> rfl
/-- The three-axis zero offsets. -/
theorem zero_offset3 : (![0, 0, 0] : Fin 3 → Nat) = fun _ => 0 := funext fun a => by fin_cases a <;> rfl

/-- The first point of a row block (expert 0, chunk 0) stores the zero block, reads it back and adds the step to it. -/
theorem out_A (c : Dev nD) (i : grid0.Coords) (arg3 : Memref sig .tc .vmem S1x512x1 .f32) (harg3 : arg3.IsWhole) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x2048 .f32) (harg8 : arg8.IsWhole) (hc0 : cond0_0 i)
    (x0 : Vec F S1x512x1 .f32) (x1 : Vec F S512x2048 .bf16) (x2 : Vec F S1x2048x512 .bf16) (x3 : Vec F S1x2048x512 .bf16) (x4 : Vec F S1x512x2048 .bf16) :
    out0_A_5 c i arg3 harg3 arg4 harg4 arg5 harg5 arg6 harg6 arg7 harg7 arg8 harg8 hc0 x0 x1 x2 x3 x4
      = k0_pay2 x1 x2 x3 x4 x0 (k0_pay1 (F := F)) := by
  unfold out0_A_5
  rw [View.read_writes_eq_canon _ _ _ (cover0_A_5 c i arg3 harg3 arg4 harg4 arg5 harg5 arg6 harg6 arg7 harg7 arg8 harg8 hc0 x0 x1 x2 x3 x4)]
  unfold kernelRun0_A
  dsimp only
  sl_unfold_words
  rw [View.canon_cons_unit_zero (S := S512x2048) zero_offset2, View.readCov_unit_zero (S := S512x2048) _ zero_offset2]
  simp only [View.readAt_eq_ld, harg3.read_unread, harg4.read_unread, harg5.read_unread, harg6.read_unread, harg7.read_unread,
    View.ld_unit_zero (S := S512x2048) zero_offset2, View.ld_unit_zero (S := S1x512x1) zero_offset3,
    View.ld_unit_zero (S := S1x2048x512) zero_offset3, View.ld_unit_zero (S := S1x512x2048) zero_offset3]

/-- Every other point adds the step to what the point before left in the block. -/
theorem out_B (c : Dev nD) (i : grid0.Coords) (arg3 : Memref sig .tc .vmem S1x512x1 .f32) (harg3 : arg3.IsWhole) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x2048 .f32) (harg8 : arg8.IsWhole) (hc0 : ¬cond0_0 i)
    (x0 : Vec F S1x512x1 .f32) (x1 : Vec F S512x2048 .bf16) (x2 : Vec F S1x2048x512 .bf16) (x3 : Vec F S1x2048x512 .bf16) (x4 : Vec F S1x512x2048 .bf16) (xo5 : Vec F S512x2048 .f32) :
    out0_B_5 c i arg3 harg3 arg4 harg4 arg5 harg5 arg6 harg6 arg7 harg7 arg8 harg8 hc0 x0 x1 x2 x3 x4 xo5
      = k0_pay2 x1 x2 x3 x4 x0 xo5 := by
  unfold out0_B_5
  rw [View.read_writes_eq_canon _ _ _ (cover0_B_5 c i arg3 harg3 arg4 harg4 arg5 harg5 arg6 harg6 arg7 harg7 arg8 harg8 hc0 x0 x1 x2 x3 x4 xo5)]
  unfold kernelRun0_B
  dsimp only
  rw [View.canon_unit_zero zero_offset2]
  simp only [View.readAt_eq_ld, harg3.read_unread, harg4.read_unread, harg5.read_unread, harg6.read_unread, harg7.read_unread, harg8.read_unread,
    View.ld_unit_zero (S := S512x2048) zero_offset2, View.ld_unit_zero (S := S1x512x1) zero_offset3,
    View.ld_unit_zero (S := S1x2048x512) zero_offset3, View.ld_unit_zero (S := S1x512x2048) zero_offset3]

end anyF

/-! ## Layout operations of the gate column, read at an entry -/

section Layout
variable {α : Type}

/-- A `[1, a, 1]` column cast to `[a, 1]` reads, at `(i, u)`, the operand at `(0, i, 0)`. -/
theorem shapeCast_1a1_a1_apply {a : ℕ} (x : (⟨3, ![1, a, 1]⟩ : Shape).Idx → α)
    (h : (⟨3, ![1, a, 1]⟩ : Shape).ShapeCasts ⟨2, ![a, 1]⟩) (i : Fin a) (u : Fin 1) :
    shapeCast ⟨2, ![a, 1]⟩ x h (ix2 i u) = x (ix3 (0 : Fin 1) i (0 : Fin 1)) := by
  rw [shapeCast_1ab_ab_apply x h i u, Subsingleton.elim u (0 : Fin 1)]

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two matrix products, read at an entry -/

section Products

/-- Left operand of the up-projection product: row coordinate. -/
theorem up_lhs0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
/-- Left operand of the up-projection product: the contracted coordinate. -/
theorem up_lhs1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
/-- Right operand of the up-projection product: the contracted coordinate. -/
theorem up_rhs0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
/-- Right operand of the up-projection product: column coordinate. -/
theorem up_rhs1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- A `[512, 2048] × [2048, 512]` product into the zero block, at entry `(r, k)`: the sum over the 2048 inner coordinates. -/
theorem up_apply (a : FVec Ideal S512x2048 .bf16) (b : FVec Ideal S2048x512 .bf16) (r k : Fin 512) :
    matmul (F := Ideal) dot_S512x2048_S2048x512_S512x512_1_0_0_1_n_n none a b (constant (F := Ideal) S512x512 .f32 0x00000000#32) (ix2 r k)
      = ∑ j : Fin 2048, a (ix2 r j) * b (ix2 j k) := by
  simp only [matmul]
  rw [Ideal.matmul_constant_zero_apply, ← Equiv.sum_comp (contrEquiv1 dot_S512x2048_S2048x512_S512x512_1_0_0_1_n_n 2048 rfl rfl).symm]
  refine Finset.sum_congr rfl fun j _ => ?_
  have hk := contrEquiv1_symm_val dot_S512x2048_S2048x512_S512x512_1_0_0_1_n_n 2048 rfl rfl j
  have el : dot_S512x2048_S2048x512_S512x512_1_0_0_1_n_n.lhsIdx (ix2 r k) ((contrEquiv1 dot_S512x2048_S2048x512_S512x512_1_0_0_1_n_n 2048 rfl rfl).symm j) = ix2 r j := funext fun ax => Fin.ext (by
    match ax with
    | ⟨0, _⟩ => exact up_lhs0 _ _
    | ⟨1, _⟩ => exact (up_lhs1 _ _).trans hk)
  have er : dot_S512x2048_S2048x512_S512x512_1_0_0_1_n_n.rhsIdx (ix2 r k) ((contrEquiv1 dot_S512x2048_S2048x512_S512x512_1_0_0_1_n_n 2048 rfl rfl).symm j) = ix2 j k := funext fun ax => Fin.ext (by
    match ax with
    | ⟨0, _⟩ => exact (up_rhs0 _ _).trans hk
    | ⟨1, _⟩ => exact up_rhs1 _ _)
  rw [el, er]

/-- Left operand of the down-projection product: row coordinate. -/
theorem down_lhs0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
/-- Left operand of the down-projection product: the contracted coordinate. -/
theorem down_lhs1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
/-- Right operand of the down-projection product: the contracted coordinate. -/
theorem down_rhs0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
/-- Right operand of the down-projection product: column coordinate. -/
theorem down_rhs1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- A `[512, 512] × [512, 2048]` product into the zero block, at entry `(r, h)`: the sum over the 512 inner coordinates. -/
theorem down_apply (a : FVec Ideal S512x512 .bf16) (b : FVec Ideal S512x2048 .bf16) (r : Fin 512) (h : Fin 2048) :
    matmul (F := Ideal) dot_S512x512_S512x2048_S512x2048_1_0_0_1_n_n none a b (constant (F := Ideal) S512x2048 .f32 0x00000000#32) (ix2 r h)
      = ∑ k : Fin 512, a (ix2 r k) * b (ix2 k h) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 r h) ((contrEquiv1 dot_S512x512_S512x2048_S512x2048_1_0_0_1_n_n 512 rfl rfl).symm k) = ix2 r k := funext fun ax => Fin.ext (by
    match ax with
    | ⟨0, _⟩ => exact down_lhs0 _ _
    | ⟨1, _⟩ => exact (down_lhs1 _ _).trans hk)
  have er : dot_S512x512_S512x2048_S512x2048_1_0_0_1_n_n.rhsIdx (ix2 r h) ((contrEquiv1 dot_S512x512_S512x2048_S512x2048_1_0_0_1_n_n 512 rfl rfl).symm k) = ix2 k h := funext fun ax => Fin.ext (by
    match ax with
    | ⟨0, _⟩ => exact (down_rhs0 _ _).trans hk
    | ⟨1, _⟩ => exact down_rhs1 _ _)
  rw [el, er]

end Products

/-! ## The step's parts at an entry, from the loaded blocks -/

section Step

/-- The logistic function acts entry by entry. -/
theorem logistic_apply {s : Shape} {φ : FTy} (a : FVec Ideal s φ) (i : s.Idx) : logistic a i = Ideal.logistic (a i) := rfl

/-- An up-projection at entry `(r, k)`: the hidden-state row `r` against column `k` of the weight chunk (its leading
    unit axis dropped). -/
theorem up_cast_apply (x1 : FVec Ideal S512x2048 .bf16) (w : FVec Ideal S1x2048x512 .bf16) (r k : Fin 512) :
    matmul (F := Ideal) dot_S512x2048_S2048x512_S512x512_1_0_0_1_n_n none (shapeCast S512x2048 x1 shapeCasts_S512x2048_S512x2048)
        (shapeCast S2048x512 w shapeCasts_S1x2048x512_S2048x512) (constant (F := Ideal) S512x512 .f32 0x00000000#32) (ix2 r k)
      = ∑ j : Fin 2048, x1 (ix2 r j) * w (ix3 (0 : Fin 1) j k) := by
  rw [up_apply, shapeCast_self]
  exact Finset.sum_congr rfl fun j _ => by rw [shapeCast_1ab_ab_apply]

/-- The gate column spread over the chunk's 512 columns reads, at `(r, k)`, the gate of row `r`. -/
theorem gate_apply (x0 : Vec Ideal S1x512x1 .f32) (r k : Fin 512) :
    broadcastTo S512x512 (shapeCast S512x1 (shapeCast S1x512x1 x0 shapeCasts_S1x512x1_S1x512x1) shapeCasts_S1x512x1_S512x1)
        broadcasts_S512x1_S512x512 (ix2 r k)
      = x0 (ix3 (0 : Fin 1) r (0 : Fin 1)) := by
  rw [broadcastTo_a1_ab_apply, shapeCast_1a1_a1_apply, shapeCast_self]

end Step

/-- The zero block, at an entry. -/
theorem pay1_apply (i : S512x2048.Idx) : k0_pay1 (F := Ideal) i = (0 : EReal) := by
  unfold k0_pay1
  exact Ideal.ofBits_zero_f32

/-- The accumulation step at entry (r, h) of the block: the old entry plus, summed over the chunk's 512 inner
    coordinates k, (silu(x·w1) · (x·w3) · gate) · w2 — x1 the hidden-state rows, x2 / x3 the up-projection chunks,
    x4 the down-projection chunk, x0 the gate column. -/
theorem pay2_apply (x0 : Vec Ideal S1x512x1 .f32) (x1 : Vec Ideal S512x2048 .bf16) (x2 x3 : Vec Ideal S1x2048x512 .bf16)
    (x4 : Vec Ideal S1x512x2048 .bf16) (xo : Vec Ideal S512x2048 .f32) (r : Fin 512) (h : Fin 2048) :
    k0_pay2 (F := Ideal) x1 x2 x3 x4 x0 xo (ix2 r h)
      = xo (ix2 r h) + ∑ k : Fin 512,
          ((((∑ j : Fin 2048, x1 (ix2 r j) * x2 (ix3 (0 : Fin 1) j k)) * Ideal.logistic (∑ j : Fin 2048, x1 (ix2 r j) * x2 (ix3 (0 : Fin 1) j k)))
              * (∑ j : Fin 2048, x1 (ix2 r j) * x3 (ix3 (0 : Fin 1) j k))) * x0 (ix3 (0 : Fin 1) r (0 : Fin 1))) * x4 (ix3 (0 : Fin 1) k h) := by
  unfold k0_pay2
  rw [addf_apply, shapeCast_self, down_apply]
  refine congrArg (xo (ix2 r h) + ·) (Finset.sum_congr rfl fun k _ => ?_)
  rw [truncf_apply, mulf_apply, mulf_apply, mulf_apply, logistic_apply, up_cast_apply, up_cast_apply, gate_apply,
    shapeCast_1ab_ab_apply]

end Cert.KernelIdeal.BodyValue

end
-- ==== Proof.BlockValue.lean ====
/-
  The kernel's output array after the pallas_call: row block by row block, the 64 (expert, chunk) steps added in
  order from zero — as one function of the arrays the call's five input windows read.
-/
import proofs.«121479_j17446157156565_2_alg».proof.Proof.BodyValue
import proofs.«121479_j17446157156565_2_alg».proof.Proof.Spec

noncomputable section

open Idealize.ShloMosaic Idealize.ShloMosaic.TcCoe Idealize.SL.Sem
open Idealize.ShloMosaic.Pipeline (Dat)

namespace Cert.KernelIdeal.BlockValue

open Cert.KernelIdeal Cert.KernelIdeal.Gen Idealize.ShloMosaic.ValueIdx

variable (m : (ℓ : Loc nD τ sig) → Buf (Elt Ideal) ℓ)

/-- The whole output array, as the specification's flat arrangement of the gates (window 0's array), the hidden-state
    rows (window 1's), the two up-projection arrays (windows 2, 3) and the down-projection array (window 4). -/
def result (c : Dev nD) : S4096x2048.Idx → EReal := fun i =>
  Cert.Spec.flatV (fun e n => V m c main_v13 (ix3 e n (0 : Fin 1))) (fun n j => V m c main_v15 (ix2 n j))
    (fun e j k => V m c main_v16 (ix3 e j k)) (fun e j k => V m c main_v18 (ix3 e j k)) (fun e k h => V m c main_v17 (ix3 e k h))
    (i 0) (i 1)

/-! ## Where each window's block sits: the printed index maps, decided once over the grid

Point t = 64 mb + 8 e + f has row block mb = t / 64, expert e = t / 8 % 8 and chunk f = t % 8. -/

theorem idx0 : ∀ t : Fin cfg0.N, win0_0.index t (0 : Fin 3) = t.val / 8 % 8 ∧ win0_0.index t (1 : Fin 3) = t.val / 64
    ∧ win0_0.index t (2 : Fin 3) = 0 :=
  (by decide +kernel : ∀ t : Fin grid0.N, _)
theorem idx1 : ∀ t : Fin cfg0.N, win0_1.index t (0 : Fin 2) = t.val / 64 ∧ win0_1.index t (1 : Fin 2) = 0 :=
  (by decide +kernel : ∀ t : Fin grid0.N, _)
theorem idx2 : ∀ t : Fin cfg0.N, win0_2.index t (0 : Fin 3) = t.val / 8 % 8 ∧ win0_2.index t (1 : Fin 3) = 0
    ∧ win0_2.index t (2 : Fin 3) = t.val % 8 :=
  (by decide +kernel : ∀ t : Fin grid0.N, _)
theorem idx3 : ∀ t : Fin cfg0.N, win0_3.index t (0 : Fin 3) = t.val / 8 % 8 ∧ win0_3.index t (1 : Fin 3) = 0
    ∧ win0_3.index t (2 : Fin 3) = t.val % 8 :=
  (by decide +kernel : ∀ t : Fin grid0.N, _)
theorem idx4 : ∀ t : Fin cfg0.N, win0_4.index t (0 : Fin 3) = t.val / 8 % 8 ∧ win0_4.index t (1 : Fin 3) = t.val % 8
    ∧ win0_4.index t (2 : Fin 3) = 0 :=
  (by decide +kernel : ∀ t : Fin grid0.N, _)
theorem idx5 : ∀ t : Fin cfg0.N, win0_5.index t (0 : Fin 2) = t.val / 64 ∧ win0_5.index t (1 : Fin 2) = 0 :=
  (by decide +kernel : ∀ t : Fin grid0.N, _)

/-! ## The arrays the windows read, curried over their coordinates -/

/-- The gates G[e, n] (window 0's array, its last axis of extent 1). -/
abbrev Gm (c : Dev nD) : Fin 8 → Fin 4096 → EReal := fun e n => V m c main_v13 (ix3 e n (0 : Fin 1))
/-- The hidden-state rows X[n, j] (window 1's array). -/
abbrev Xm (c : Dev nD) : Fin 4096 → Fin 2048 → EReal := fun n j => V m c main_v15 (ix2 n j)
/-- The first up-projection W1[e, j, k] (window 2's array). -/
abbrev W1m (c : Dev nD) : Cert.Spec.UpT := fun e j k => V m c main_v16 (ix3 e j k)
/-- The second up-projection W3[e, j, k] (window 3's array). -/
abbrev W3m (c : Dev nD) : Cert.Spec.UpT := fun e j k => V m c main_v18 (ix3 e j k)
/-- The down-projection W2[e, k, h] (window 4's array). -/
abbrev W2m (c : Dev nD) : Cert.Spec.DownT := fun e k h => V m c main_v17 (ix3 e k h)

theorem result_apply (c : Dev nD) (i : S4096x2048.Idx) :
    result m c i = Cert.Spec.flatV (Gm m c) (Xm m c) (W1m m c) (W3m m c) (W2m m c) (i 0) (i 1) := rfl

/-! ## Each input block read where its index map says

A block's coordinate in the array is always index × size + 1 × the coordinate inside the block. With q = t % 64 the
step inside the row block, the point's expert is eOf q and its chunk fOf q. -/

open Cert.Spec in
/-- Window 0 at point t: the gate column of expert eOf q for the rows of row block t / 64. -/
theorem iblk0_apply (c : Dev nD) (t : Fin cfg0.N) (r : Fin 512) (row : Fin 4096) (hrow : row.val = 512 * (t.val / 64) + r.val)
    (q : ℕ) (hq : q = t.val % 64) :
    (iblk m c 0 t : Vec Ideal S1x512x1 .f32) (ix3 (0 : Fin 1) r (0 : Fin 1)) = Gm m c (eOf q) row := by
  obtain ⟨e0, e1, e2⟩ := idx0 t
  unfold iblk
  rw [View.read_apply]
  show V m c main_v13 _ = V m c main_v13 _
  congr 1
  funext a
  apply Fin.ext
  match a with
  | ⟨0, _⟩ => show win0_0.index t (0 : Fin 3) * 1 + 1 * 0 = q / 8 % 8; rw [e0, hq]; omega
  | ⟨1, _⟩ => show win0_0.index t (1 : Fin 3) * 512 + 1 * r.val = row.val; rw [e1, hrow]; omega
  | ⟨2, _⟩ => show win0_0.index t (2 : Fin 3) * 1 + 1 * 0 = 0; rw [e2]

/-- Window 1 at point t: the hidden-state rows of row block t / 64. -/
theorem iblk1_apply (c : Dev nD) (t : Fin cfg0.N) (r : Fin 512) (j : Fin 2048) (row : Fin 4096)
    (hrow : row.val = 512 * (t.val / 64) + r.val) :
    (iblk m c 1 t : Vec Ideal S512x2048 .bf16) (ix2 r j) = Xm m c row j := by
  obtain ⟨e0, e1⟩ := idx1 t
  unfold iblk
  rw [View.read_apply]
  show V m c main_v15 _ = V m c main_v15 _
  congr 1
  funext a
  apply Fin.ext
  match a with
  | ⟨0, _⟩ => show win0_1.index t (0 : Fin 2) * 512 + 1 * r.val = row.val; rw [e0, hrow]; omega
  | ⟨1, _⟩ => show win0_1.index t (1 : Fin 2) * 2048 + 1 * j.val = j.val; rw [e1]; omega

open Cert.Spec in
/-- Window 2 at point t: chunk fOf q of expert eOf q's first up-projection. -/
theorem iblk2_apply (c : Dev nD) (t : Fin cfg0.N) (j : Fin 2048) (k : Fin 512) (q : ℕ) (hq : q = t.val % 64) :
    (iblk m c 2 t : Vec Ideal S1x2048x512 .bf16) (ix3 (0 : Fin 1) j k) = W1m m c (eOf q) j (kk (fOf q) k) := by
  obtain ⟨e0, e1, e2⟩ := idx2 t
  unfold iblk
  rw [View.read_apply]
  show V m c main_v16 _ = V m c main_v16 _
  congr 1
  funext a
  apply Fin.ext
  match a with
  | ⟨0, _⟩ => show win0_2.index t (0 : Fin 3) * 1 + 1 * 0 = q / 8 % 8; rw [e0, hq]; omega
  | ⟨1, _⟩ => show win0_2.index t (1 : Fin 3) * 2048 + 1 * j.val = j.val; rw [e1]; omega
  | ⟨2, _⟩ => show win0_2.index t (2 : Fin 3) * 512 + 1 * k.val = 512 * (q % 8) + k.val; rw [e2, hq]; omega

open Cert.Spec in
/-- Window 3 at point t: chunk fOf q of expert eOf q's second up-projection. -/
theorem iblk3_apply (c : Dev nD) (t : Fin cfg0.N) (j : Fin 2048) (k : Fin 512) (q : ℕ) (hq : q = t.val % 64) :
    (iblk m c 3 t : Vec Ideal S1x2048x512 .bf16) (ix3 (0 : Fin 1) j k) = W3m m c (eOf q) j (kk (fOf q) k) := by
  obtain ⟨e0, e1, e2⟩ := idx3 t
  unfold iblk
  rw [View.read_apply]
  show V m c main_v18 _ = V m c main_v18 _
  congr 1
  funext a
  apply Fin.ext
  match a with
  | ⟨0, _⟩ => show win0_3.index t (0 : Fin 3) * 1 + 1 * 0 = q / 8 % 8; rw [e0, hq]; omega
  | ⟨1, _⟩ => show win0_3.index t (1 : Fin 3) * 2048 + 1 * j.val = j.val; rw [e1]; omega
  | ⟨2, _⟩ => show win0_3.index t (2 : Fin 3) * 512 + 1 * k.val = 512 * (q % 8) + k.val; rw [e2, hq]; omega

open Cert.Spec in
/-- Window 4 at point t: chunk fOf q of expert eOf q's down-projection. -/
theorem iblk4_apply (c : Dev nD) (t : Fin cfg0.N) (k : Fin 512) (h : Fin 2048) (q : ℕ) (hq : q = t.val % 64) :
    (iblk m c 4 t : Vec Ideal S1x512x2048 .bf16) (ix3 (0 : Fin 1) k h) = W2m m c (eOf q) (kk (fOf q) k) h := by
  obtain ⟨e0, e1, e2⟩ := idx4 t
  unfold iblk
  rw [View.read_apply]
  show V m c main_v17 _ = V m c main_v17 _
  congr 1
  funext a
  apply Fin.ext
  match a with
  | ⟨0, _⟩ => show win0_4.index t (0 : Fin 3) * 1 + 1 * 0 = q / 8 % 8; rw [e0, hq]; omega
  | ⟨1, _⟩ => show win0_4.index t (1 : Fin 3) * 512 + 1 * k.val = 512 * (q % 8) + k.val; rw [e1, hq]; omega
  | ⟨2, _⟩ => show win0_4.index t (2 : Fin 3) * 2048 + 1 * h.val = h.val; rw [e2]; omega

/-! ## One grid point: the step it adds, as a function of its five input blocks -/

/-- The step a point adds at entry (r, h) of the output block, from its blocks: x0 the gate column, x1 the hidden-state
    rows, x2 / x3 the up-projection chunks, x4 the down-projection chunk. -/
def blockStep (x0 : Vec Ideal S1x512x1 .f32) (x1 : Vec Ideal S512x2048 .bf16) (x2 x3 : Vec Ideal S1x2048x512 .bf16)
    (x4 : Vec Ideal S1x512x2048 .bf16) (r : Fin 512) (h : Fin 2048) : EReal :=
  ∑ k : Fin 512,
    ((((∑ j : Fin 2048, x1 (ix2 r j) * x2 (ix3 (0 : Fin 1) j k)) * Ideal.logistic (∑ j : Fin 2048, x1 (ix2 r j) * x2 (ix3 (0 : Fin 1) j k)))
        * (∑ j : Fin 2048, x1 (ix2 r j) * x3 (ix3 (0 : Fin 1) j k))) * x0 (ix3 (0 : Fin 1) r (0 : Fin 1))) * x4 (ix3 (0 : Fin 1) k h)

/-- The first point of a row block leaves the step alone (the zero block plus the step). -/
theorem first_apply (c : Dev nD) (i : grid0.Coords) (arg3 : Memref sig .tc .vmem S1x512x1 .f32) (harg3 : arg3.IsWhole) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x2048 .f32) (harg8 : arg8.IsWhole) (hc0 : cond0_0 i)
    (x0 : Vec Ideal S1x512x1 .f32) (x1 : Vec Ideal S512x2048 .bf16) (x2 : Vec Ideal S1x2048x512 .bf16) (x3 : Vec Ideal S1x2048x512 .bf16) (x4 : Vec Ideal S1x512x2048 .bf16)
    (r : Fin 512) (h : Fin 2048) :
    out0_A_5 c i arg3 harg3 arg4 harg4 arg5 harg5 arg6 harg6 arg7 harg7 arg8 harg8 hc0 x0 x1 x2 x3 x4 (ix2 r h)
      = blockStep x0 x1 x2 x3 x4 r h := by
  rw [BodyValue.out_A c i arg3 harg3 arg4 harg4 arg5 harg5 arg6 harg6 arg7 harg7 arg8 harg8 hc0 x0 x1 x2 x3 x4,
    BodyValue.pay2_apply x0 x1 x2 x3 x4 (k0_pay1 (F := Ideal)) r h, BodyValue.pay1_apply (ix2 r h), zero_add]
  rfl

/-- Every other point adds the step to what the point before left. -/
theorem next_apply (c : Dev nD) (i : grid0.Coords) (arg3 : Memref sig .tc .vmem S1x512x1 .f32) (harg3 : arg3.IsWhole) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x2048 .f32) (harg8 : arg8.IsWhole) (hc0 : ¬cond0_0 i)
    (x0 : Vec Ideal S1x512x1 .f32) (x1 : Vec Ideal S512x2048 .bf16) (x2 : Vec Ideal S1x2048x512 .bf16) (x3 : Vec Ideal S1x2048x512 .bf16) (x4 : Vec Ideal S1x512x2048 .bf16) (xo5 : Vec Ideal S512x2048 .f32)
    (r : Fin 512) (h : Fin 2048) :
    out0_B_5 c i arg3 harg3 arg4 harg4 arg5 harg5 arg6 harg6 arg7 harg7 arg8 harg8 hc0 x0 x1 x2 x3 x4 xo5 (ix2 r h)
      = xo5 (ix2 r h) + blockStep x0 x1 x2 x3 x4 r h := by
  rw [BodyValue.out_B c i arg3 harg3 arg4 harg4 arg5 harg5 arg6 harg6 arg7 harg7 arg8 harg8 hc0 x0 x1 x2 x3 x4 xo5,
    BodyValue.pay2_apply x0 x1 x2 x3 x4 xo5 r h]
  rfl

/-- The step depends on the blocks only through the entries it reads. -/
theorem blockStep_congr (x0 : Vec Ideal S1x512x1 .f32) (x1 : Vec Ideal S512x2048 .bf16) (x2 x3 : Vec Ideal S1x2048x512 .bf16)
    (x4 : Vec Ideal S1x512x2048 .bf16) (r : Fin 512) (h : Fin 2048) (g : EReal) (X : Fin 2048 → EReal)
    (A B : Fin 2048 → Fin 512 → EReal) (D : Fin 512 → EReal)
    (h0 : x0 (ix3 (0 : Fin 1) r (0 : Fin 1)) = g) (h1 : ∀ j : Fin 2048, x1 (ix2 r j) = X j)
    (h2 : ∀ (j : Fin 2048) (k : Fin 512), x2 (ix3 (0 : Fin 1) j k) = A j k)
    (h3 : ∀ (j : Fin 2048) (k : Fin 512), x3 (ix3 (0 : Fin 1) j k) = B j k)
    (h4 : ∀ k : Fin 512, x4 (ix3 (0 : Fin 1) k h) = D k) :
    blockStep x0 x1 x2 x3 x4 r h
      = ∑ k : Fin 512, ((((∑ j : Fin 2048, X j * A j k) * Ideal.logistic (∑ j : Fin 2048, X j * A j k))
          * (∑ j : Fin 2048, X j * B j k)) * g) * D k := by
  unfold blockStep
  simp only [h0, h1, h2, h3, h4]

open Cert.Spec in
/-- At point t the blocks' step is the specification's step q = t % 64 at row 512 (t / 64) + r. -/
theorem blockStep_iblk (c : Dev nD) (t : Fin cfg0.N) (r : Fin 512) (h : Fin 2048) (row : Fin 4096)
    (hrow : row.val = 512 * (t.val / 64) + r.val) (q : ℕ) (hq : q = t.val % 64) :
    blockStep (iblk m c 0 t) (iblk m c 1 t) (iblk m c 2 t) (iblk m c 3 t) (iblk m c 4 t) r h
      = stepF (Gm m c) (Xm m c) (W1m m c) (W3m m c) (W2m m c) row h q :=
  blockStep_congr (iblk m c 0 t) (iblk m c 1 t) (iblk m c 2 t) (iblk m c 3 t) (iblk m c 4 t) r h
    (Gm m c (eOf q) row) (fun j => Xm m c row j) (fun j k => W1m m c (eOf q) j (kk (fOf q) k))
    (fun j k => W3m m c (eOf q) j (kk (fOf q) k)) (fun k => W2m m c (eOf q) (kk (fOf q) k) h)
    (iblk0_apply m c t r row hrow q hq) (fun j => iblk1_apply m c t r j row hrow)
    (fun j k => iblk2_apply m c t j k q hq) (fun j k => iblk3_apply m c t j k q hq) (fun k => iblk4_apply m c t k h q hq)

/-! ## The invariant: what the output block holds after each point -/

/-- At the first point of a row block the output block holds that point's step. -/
theorem outsAt_first (c : Dev nD) (t : Fin cfg0.N) (h0 : t.val % 64 = 0) (r : Fin 512) (h : Fin 2048) :
    outsAt0 m c t.val t.isLt (ix2 r h)
      = blockStep (iblk m c 0 t) (iblk m c 1 t) (iblk m c 2 t) (iblk m c 3 t) (iblk m c 4 t) r h := by
  rw [outsAt0_A m c t h0]
  exact first_apply c (grid0.coords t) (ms0_0 t) (hs0_0 t) (ms0_1 t) (hs0_1 t) (ms0_2 t) (hs0_2 t) (ms0_3 t) (hs0_3 t)
    (ms0_4 t) (hs0_4 t) (ms0_5 t) (hs0_5 t) ((hcond0_0 t).mpr h0) (iblk m c 0 t) (iblk m c 1 t) (iblk m c 2 t) (iblk m c 3 t)
    (iblk m c 4 t) r h

/-- At every other point it holds what the point before left plus that point's step. -/
theorem outsAt_next (c : Dev nD) (t : Fin cfg0.N) (h0 : ¬t.val % 64 = 0) (r : Fin 512) (h : Fin 2048) :
    outsAt0 m c t.val t.isLt (ix2 r h)
      = outsAt0 m c (t.val - 1) (Nat.lt_of_le_of_lt (Nat.sub_le _ _) t.isLt) (ix2 r h)
        + blockStep (iblk m c 0 t) (iblk m c 1 t) (iblk m c 2 t) (iblk m c 3 t) (iblk m c 4 t) r h := by
  rw [outsAt0_B m c t h0]
  exact next_apply c (grid0.coords t) (ms0_0 t) (hs0_0 t) (ms0_1 t) (hs0_1 t) (ms0_2 t) (hs0_2 t) (ms0_3 t) (hs0_3 t)
    (ms0_4 t) (hs0_4 t) (ms0_5 t) (hs0_5 t) (fun hc => h0 ((hcond0_0 t).mp hc)) (iblk m c 0 t) (iblk m c 1 t) (iblk m c 2 t)
    (iblk m c 3 t) (iblk m c 4 t) (outsAt0 m c (t.val - 1) (Nat.lt_of_le_of_lt (Nat.sub_le _ _) t.isLt)) r h

open Cert.Spec in
/-- THE INVARIANT. After point n the output block holds, at entry (r, h), the steps 0 … n % 64 of row
    512 (n / 64) + r added in order — by induction on the point: a row block's first point starts the sum, every other
    point of the same row block (n / 64 does not move while n % 64 ≠ 0) adds the next term. -/
theorem outsAt_eq (c : Dev nD) : ∀ (n : ℕ) (hn : n < cfg0.N) (r : Fin 512) (h : Fin 2048) (row : Fin 4096),
    row.val = 512 * (n / 64) + r.val →
    outsAt0 m c n hn (ix2 r h)
      = ∑ q ∈ Finset.range (n % 64 + 1), stepF (Gm m c) (Xm m c) (W1m m c) (W3m m c) (W2m m c) row h q := by
  intro n
  induction n with
  | zero =>
    intro hn r h row hrow
    rw [outsAt_first m c ⟨0, hn⟩ rfl r h, blockStep_iblk m c ⟨0, hn⟩ r h row hrow 0 rfl,
      show (0 % 64 + 1) = 1 from rfl, Finset.sum_range_one]
  | succ n ih =>
    intro hn r h row hrow
    by_cases h0 : (n + 1) % 64 = 0
    · rw [outsAt_first m c ⟨n + 1, hn⟩ h0 r h, blockStep_iblk m c ⟨n + 1, hn⟩ r h row hrow 0 h0.symm, h0, zero_add,
        Finset.sum_range_one]
    · have e1 : (n + 1) % 64 = n % 64 + 1 := by omega
      rw [outsAt_next m c ⟨n + 1, hn⟩ h0 r h, blockStep_iblk m c ⟨n + 1, hn⟩ r h row hrow (n % 64 + 1) e1.symm, e1,
        Finset.sum_range_succ]
      congr 1
      exact ih (Nat.lt_of_succ_lt hn) r h row (by omega)

/-! ## From the blocks to the array -/

open Cert.Spec in
/-- What a row block's last point (t % 64 = 63) leaves at an entry of the output block is the whole-array function
    at that entry's place in the array: all 64 steps of its row. -/
theorem flushed_entry (c : Dev nD) (t : Fin cfg0.N) (h63 : t.val % 64 = 63) (y : S512x2048.Idx) :
    outsAt0 m c t.val t.isLt y = result m c (((cfg0.win 5).blk t).view.emb y) := by
  obtain ⟨r, h, rfl⟩ : ∃ (r : Fin 512) (h : Fin 2048), y = ix2 r h := ⟨y 0, y 1, eq_ix2 y⟩
  obtain ⟨e0, e1⟩ := idx5 t
  have hN : t.val < 512 := lt_of_lt_of_eq t.isLt (show cfg0.N = 512 from N_0)
  have hr : 512 * (t.val / 64) + r.val < 4096 := by have := r.isLt; omega
  have hrow : (((cfg0.win 5).blk t).view.emb (ix2 r h)) 0 = (⟨512 * (t.val / 64) + r.val, hr⟩ : Fin 4096) :=
    Fin.ext (by show win0_5.index t (0 : Fin 2) * 512 + 1 * r.val = 512 * (t.val / 64) + r.val; rw [e0]; omega)
  have hcol : (((cfg0.win 5).blk t).view.emb (ix2 r h)) 1 = h :=
    Fin.ext (by show win0_5.index t (1 : Fin 2) * 2048 + 1 * h.val = h.val; rw [e1]; omega)
  refine (outsAt_eq m c t.val t.isLt r h ⟨512 * (t.val / 64) + r.val, hr⟩ rfl).trans ?_
  rw [h63, result_apply]
  exact (congr (congrArg (flatV (Gm m c) (Xm m c) (W1m m c) (W3m m c) (W2m m c)) hrow) hcol).symm

/-- What a flushing point writes back is its block of the whole-array function. -/
theorem flushed_eq (c : Dev nD) (t : Fin cfg0.N) (hf : (cfg0.win 5).flush t = true) :
    (dats m 0 c).flushed 5 t = ((cfg0.win 5).blk t).view.read (Elt Ideal) (result m c) := by
  have h63 : t.val % 64 = 63 := (flush0_5 t).mp hf
  show (cfg0.win 5).cut (grid0.coords t) ((dats m 0 c).after 5 t) = _
  rw [after0_5]
  funext y
  exact flushed_entry m c t h63 y

/-- An index of the array is in point t's block iff each coordinate is in the block's range on its axis. -/
theorem mem_blk (t : Fin cfg0.N) (i : S4096x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v19).slice (win0_5.rect t)).set ↔ _
  rw [View.set_slice_whole, Rect.mem_set_unit]
  exact Iff.rfl

/-- Row n of the array lies in the block written back after the last step of its row block, point 64 (n / 512) + 63. -/
theorem cover (i : S4096x2048.Idx) :
    ∃ t : Fin cfg0.N, (cfg0.win 5).flush t = true ∧ i ∈ ((cfg0.win 5).blk t).view.set := by
  have hi0 : (i 0).val < 4096 := (i 0).isLt
  have hi1 : (i 1).val < 2048 := (i 1).isLt
  have htl : 64 * ((i 0).val / 512) + 63 < cfg0.N := by rw [show cfg0.N = 512 from N_0]; omega
  obtain ⟨e0, e1⟩ := idx5 ⟨64 * ((i 0).val / 512) + 63, htl⟩
  have e0' : win0_5.index ⟨64 * ((i 0).val / 512) + 63, htl⟩ (0 : Fin 2) = (64 * ((i 0).val / 512) + 63) / 64 := e0
  refine ⟨⟨64 * ((i 0).val / 512) + 63, htl⟩, (flush0_5 _).mpr (by show (64 * ((i 0).val / 512) + 63) % 64 = 63; omega), ?_⟩
  rw [mem_blk]
  intro a
  match a with
  | ⟨0, _⟩ =>
    show win0_5.index ⟨64 * ((i 0).val / 512) + 63, htl⟩ (0 : Fin 2) * 512 ≤ (i 0).val
      ∧ (i 0).val < win0_5.index ⟨64 * ((i 0).val / 512) + 63, htl⟩ (0 : Fin 2) * 512 + 512
    rw [e0']; omega
  | ⟨1, _⟩ =>
    show win0_5.index ⟨64 * ((i 0).val / 512) + 63, htl⟩ (1 : Fin 2) * 2048 ≤ (i 1).val
      ∧ (i 1).val < win0_5.index ⟨64 * ((i 0).val / 512) + 63, htl⟩ (1 : Fin 2) * 2048 + 2048
    rw [e1]; omega

/-- After the last grid point the call's output array holds `result`: row block mb is written back once, after its
    64th step, and the 8 row blocks cover the 4096 rows. -/
theorem final (c : Dev nD) : (dats (F := Ideal) m 0 c).arrAt 5 cfg0.N = result m c := by
  exact (dats m 0 c).arrAt_eq_of_cover 5 (result m c) (flushed_eq m c) fun i => cover i

end Cert.KernelIdeal.BlockValue

end
-- ==== Proof.HostValue.lean ====
/-
  The host side of the kernel program: what the five arrays read by the pallas_call hold in terms of the
  arguments (the per-expert combine weights, the flattened hidden states, the three weight arrays unchanged),
  and the result as the call's output array re-shaped to [2, 2048, 2048].
-/
import proofs.«121479_j17446157156565_2_alg».proof.Proof.BlockValue
import Idealize.ShloMosaic.Lib.StableHlo.Run
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.HostValue

open Cert.KernelIdeal Cert.KernelIdeal.Gen Idealize.ShloMosaic.ValueIdx Idealize.ShloMosaic.StableHlo
open Cert.Spec (bOf sOf row)

/-! ## Layout operations at an entry -/

/-- Flattening the two token axes: row n of the [4096, d] array is token (n / 2048, n % 2048). -/
theorem flatten_apply {α : Type} {d : Nat} (x : (⟨3, ![2, 2048, d]⟩ : Shape).Idx → α)
    (hc : (⟨3, ![2, 2048, d]⟩ : Shape).ShapeCasts ⟨2, ![4096, d]⟩) (n : Fin 4096) (k : Fin d) :
    shapeCast (⟨2, ![4096, d]⟩ : Shape) x hc (ix2 n k) = x (ix3 (bOf n) (sOf n) k) := by
  refine shapeCast_apply x hc (ix2 n k) (ix3 (bOf n) (sOf n) k) ?_
  rw [Shape.rowMajor_val_three, Shape.rowMajor_val_two]
  show ((n.val / 2048) * 2048 + n.val % 2048) * d + k.val = n.val * d + k.val
  have : (n.val / 2048) * 2048 + n.val % 2048 = n.val := by omega
  rw [this]

/-- Broadcasting a [4096, 2] array to [8, 4096, 2] through [1, 4096, 2]: entry (e, n, k) is entry (n, k). -/
theorem bcast_tokens_apply {α : Type} (y : S4096x2.Idx → α) (e : Fin 8) (n : Fin 4096) (k : Fin 2) :
    broadcastInDim S8x4096x2 ![0, 1, 2] bcast_S1x4096x2_S8x4096x2_0_1_2
        (broadcastInDim S1x4096x2 ![1, 2] bcast_S4096x2_S1x4096x2_1_2 y) (ix3 e n k) = y (ix2 n k) := by
  rw [broadcastInDim_apply ![0, 1, 2] bcast_S1x4096x2_S8x4096x2_0_1_2 _ (ix3 e n k) (ix3 (0 : Fin 1) n k)
      (fun a => by match a with | ⟨0, _⟩ => rfl | ⟨1, _⟩ => rfl | ⟨2, _⟩ => rfl)]
  exact broadcastInDim_apply ![1, 2] bcast_S4096x2_S1x4096x2_1_2 y (ix3 (0 : Fin 1) n k) (ix2 n k)
      (fun a => by match a with | ⟨0, _⟩ => rfl | ⟨1, _⟩ => rfl)

/-- Broadcasting the expert numbers 0 … 7 to [8, 4096, 2] through [8, 1, 1]: entry (e, n, k) is the word e. -/
theorem bcast_iota_apply (e : Fin 8) (n : Fin 4096) (k : Fin 2) :
    broadcastInDim S8x4096x2 ![0, 1, 2] bcast_S8x1x1_S8x4096x2_0_1_2
        (broadcastInDim S8x1x1 ![0] bcast_S8_S8x1x1_0 (iotaInDim S8 32 0)) (ix3 e n k) = BitVec.ofNat 32 e.val := by
  rw [broadcastInDim_apply ![0, 1, 2] bcast_S8x1x1_S8x4096x2_0_1_2 _ (ix3 e n k) (ix3 e (0 : Fin 1) (0 : Fin 1))
      (fun a => by match a with | ⟨0, _⟩ => rfl | ⟨1, _⟩ => rfl | ⟨2, _⟩ => rfl)]
  rw [broadcastInDim_apply ![0] bcast_S8_S8x1x1_0 _ (ix3 e (0 : Fin 1) (0 : Fin 1)) (ix1 e)
      (fun a => by match a with | ⟨0, _⟩ => rfl)]
  rfl

/-- The sum over the two selected experts' slots: entry (e, n) of the reduce-add (initial value zero) is the sum of the
    operand's entries (e, n, 0) and (e, n, 1). -/
theorem reduce_slots_apply (y : S8x4096x2.Idx → EReal) (e : Fin 8) (n : Fin 4096) :
    Host.reduceAdd (F := Ideal) (φ := .f32) y (constant S_ .f32 0x00000000#32) reducesTo_S8x4096x2_S8x4096_d2 h_S_ (ix2 e n)
      = ∑ k : Fin 2, y (ix3 e n k) := by
  simp only [Host.reduceAdd, Ideal.hostReduceAdd_def]
  rw [Ideal.hostReduceAdd_single reducesTo_S8x4096x2_S8x4096_d2 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- Adding a trailing unit axis: entry (e, n, 0) of the [8, 4096, 1] array is entry (e, n). -/
theorem column_apply {α : Type} (y : S8x4096.Idx → α) (e : Fin 8) (n : Fin 4096) :
    shapeCast S8x4096x1 y shapeCasts_S8x4096_S8x4096x1 (ix3 e n (0 : Fin 1)) = y (ix2 e n) := by
  refine shapeCast_apply y shapeCasts_S8x4096_S8x4096x1 (ix3 e n (0 : Fin 1)) (ix2 e n) ?_
  rw [Shape.rowMajor_val_three, Shape.rowMajor_val_two]
  show e.val * 4096 + n.val = (e.val * 4096 + n.val) * 1 + 0
  omega

/-! ## The arrays the pallas_call reads -/

variable (m : (ℓ : Loc nD τ sig) → Buf (Elt Ideal) ℓ)

/-- The three weight arrays reach the call unchanged (a change of float format is the identity on the extended reals). -/
theorem V_w1 (c : Dev nD) : (V m c main_v16 : S8x2048x4096.Idx → EReal) = m ((c : Thread nD τ).loc main_arg3) := by
  show StableHlo.after hostOps0 (fun b => m (c, b)) (Proc.devRef .tc main_v16) = _
  after_results
  rfl
theorem V_w2 (c : Dev nD) : (V m c main_v17 : S8x4096x2048.Idx → EReal) = m ((c : Thread nD τ).loc main_arg4) := by
  show StableHlo.after hostOps0 (fun b => m (c, b)) (Proc.devRef .tc main_v17) = _
  after_results
  rfl
theorem V_w3 (c : Dev nD) : (V m c main_v18 : S8x2048x4096.Idx → EReal) = m ((c : Thread nD τ).loc main_arg5) := by
  show StableHlo.after hostOps0 (fun b => m (c, b)) (Proc.devRef .tc main_v18) = _
  after_results
  rfl

/-- The hidden states reach the call flattened to rows: row n is token (n / 2048, n % 2048). -/
theorem V_x (c : Dev nD) (n : Fin 4096) (j : Fin 2048) :
    (V m c main_v15 : S4096x2048.Idx → EReal) (ix2 n j) = m ((c : Thread nD τ).loc main_arg1) (ix3 (bOf n) (sOf n) j) := by
  have e : (V m c main_v15 : S4096x2048.Idx → EReal)
      = (truncf (F := Ideal) .bf16 (shapeCast S4096x2048 (m ((c : Thread nD τ).loc main_arg1) : S2x2048x2048.Idx → EReal) shapeCasts_S2x2048x2048_S4096x2048 : FVec Ideal S4096x2048 .f32) bitsLt_bf16_f32 : S4096x2048.Idx → EReal) := by
    show StableHlo.after hostOps0 (fun b => m (c, b)) (Proc.devRef .tc main_v15) = _
    after_results
    rfl
  rw [e]
  show shapeCast S4096x2048 (m ((c : Thread nD τ).loc main_arg1) : S2x2048x2048.Idx → EReal) shapeCasts_S2x2048x2048_S4096x2048 (ix2 n j) = _
  exact flatten_apply _ shapeCasts_S2x2048x2048_S4096x2048 n j

/-- The combine weights reach the call as the [8, 4096, 1] array of the specification's gates, token by flat row. -/
theorem V_gate (c : Dev nD) (e : Fin 8) (n : Fin 4096) :
    (V m c main_v13 : S8x4096x1.Idx → EReal) (ix3 e n (0 : Fin 1))
      = Cert.Spec.gate (fun b s k => m ((c : Thread nD τ).loc main_arg0) (ix3 b s k))
          (fun b s k => m ((c : Thread nD τ).loc main_arg2) (ix3 b s k)) e (bOf n) (sOf n) := by
  have hV : (V m c main_v13 : S8x4096x1.Idx → EReal)
      = (shapeCast S8x4096x1
          (Host.reduceAdd (F := Ideal) (φ := .f32)
            (mulf
              (uitofp .f32
                (cmpi .eq
                  (broadcastInDim S8x4096x2 ![0, 1, 2] bcast_S1x4096x2_S8x4096x2_0_1_2
                    (broadcastInDim S1x4096x2 ![1, 2] bcast_S4096x2_S1x4096x2_1_2
                      (shapeCast S4096x2 (m ((c : Thread nD τ).loc main_arg0) : S2x2048x2.Idx → BitVec 32) shapeCasts_S2x2048x2_S4096x2)))
                  (broadcastInDim S8x4096x2 ![0, 1, 2] bcast_S8x1x1_S8x4096x2_0_1_2
                    (broadcastInDim S8x1x1 ![0] bcast_S8_S8x1x1_0 (iotaInDim S8 32 0)))))
              (broadcastInDim S8x4096x2 ![0, 1, 2] bcast_S1x4096x2_S8x4096x2_0_1_2
                (broadcastInDim S1x4096x2 ![1, 2] bcast_S4096x2_S1x4096x2_1_2
                  (shapeCast S4096x2 (m ((c : Thread nD τ).loc main_arg2) : S2x2048x2.Idx → EReal) shapeCasts_S2x2048x2_S4096x2))))
            (constant S_ .f32 0x00000000#32) reducesTo_S8x4096x2_S8x4096_d2 h_S_)
          shapeCasts_S8x4096_S8x4096x1 : S8x4096x1.Idx → EReal) := by
    show StableHlo.after hostOps0 (fun b => m (c, b)) (Proc.devRef .tc main_v13) = _
    after_results
    rfl
  rw [hV, column_apply, reduce_slots_apply]
  unfold Cert.Spec.gate Cert.Spec.ind
  show (∑ k : Fin 2, _ : EReal) = _
  refine Finset.sum_congr rfl fun k _ => ?_
  show FloatOps.mulf (FloatOps.uitofp .f32 (IntOp.cmpi .eq _ _)) _ = _
  rw [bcast_tokens_apply, bcast_tokens_apply, bcast_iota_apply, flatten_apply, flatten_apply]
  rfl

/-! ## The result -/

/-- The argument arrays, curried over their coordinates. -/
abbrev sel (c : Dev nD) : Cert.Spec.SelT := fun b s k => m ((c : Thread nD τ).loc main_arg0) (ix3 b s k)
abbrev hid (c : Dev nD) : Cert.Spec.HidT := fun b s j => m ((c : Thread nD τ).loc main_arg1) (ix3 b s j)
abbrev rou (c : Dev nD) : Cert.Spec.RouT := fun b s k => m ((c : Thread nD τ).loc main_arg2) (ix3 b s k)
abbrev wt1 (c : Dev nD) : Cert.Spec.UpT := fun e j k => m ((c : Thread nD τ).loc main_arg3) (ix3 e j k)
abbrev wt2 (c : Dev nD) : Cert.Spec.DownT := fun e k h => m ((c : Thread nD τ).loc main_arg4) (ix3 e k h)
abbrev wt3 (c : Dev nD) : Cert.Spec.UpT := fun e j k => m ((c : Thread nD τ).loc main_arg5) (ix3 e j k)

/-- The call's output array, entry (n, h), is the kernel arrangement of the specification at the arguments, at the
    token whose flat row is n. -/
theorem result_apply (c : Dev nD) (b : Fin 2) (s : Fin 2048) (h : Fin 2048) :
    Cert.KernelIdeal.BlockValue.result m c (ix2 (row b s) h)
      = Cert.Spec.kernelV (sel m c) (hid m c) (rou m c) (wt1 m c) (wt2 m c) (wt3 m c) b s h := by
  unfold Cert.KernelIdeal.BlockValue.result Cert.Spec.kernelV
  have hG : (fun (e : Fin 8) (n : Fin 4096) => (V m c main_v13 : S8x4096x1.Idx → EReal) (ix3 e n (0 : Fin 1)))
      = fun e n => Cert.Spec.gate (sel m c) (rou m c) e (bOf n) (sOf n) := funext fun e => funext fun n => V_gate m c e n
  have hX : (fun (n : Fin 4096) (j : Fin 2048) => (V m c main_v15 : S4096x2048.Idx → EReal) (ix2 n j))
      = fun n j => hid m c (bOf n) (sOf n) j := funext fun n => funext fun j => V_x m c n j
  have h1 : (fun (e : Fin 8) (j : Fin 2048) (k : Fin 4096) => (V m c main_v16 : S8x2048x4096.Idx → EReal) (ix3 e j k)) = wt1 m c := by
    rw [V_w1]
  have h3 : (fun (e : Fin 8) (j : Fin 2048) (k : Fin 4096) => (V m c main_v18 : S8x2048x4096.Idx → EReal) (ix3 e j k)) = wt3 m c := by
    rw [V_w3]
  have h2 : (fun (e : Fin 8) (k : Fin 4096) (h : Fin 2048) => (V m c main_v17 : S8x4096x2048.Idx → EReal) (ix3 e k h)) = wt2 m c := by
    rw [V_w2]
  show Cert.Spec.flatV _ _ _ _ _ (row b s) h = _
  rw [hG, hX, h1, h3, h2]

/-- The result array: the call's output re-shaped to [2, 2048, 2048], entry by entry the kernel arrangement. -/
def kernelResult (c : Dev nD) : S2x2048x2048.Idx → EReal := fun i =>
  Cert.Spec.kernelV (sel m c) (hid m c) (rou m c) (wt1 m c) (wt2 m c) (wt3 m c) (i 0) (i 1) (i 2)

/-- Un-flattening the rows: entry (b, s, h) of the re-shaped array is entry (2048 b + s, h). -/
theorem unflatten_apply {α : Type} (y : S4096x2048.Idx → α) (b : Fin 2) (s : Fin 2048) (h : Fin 2048) :
    shapeCast S2x2048x2048 y shapeCasts_S4096x2048_S2x2048x2048 (ix3 b s h) = y (ix2 (row b s) h) := by
  refine shapeCast_apply y shapeCasts_S4096x2048_S2x2048x2048 (ix3 b s h) (ix2 (row b s) h) ?_
  rw [Shape.rowMajor_val_three, Shape.rowMajor_val_two]
  show (2048 * b.val + s.val) * 2048 + h.val = (b.val * 2048 + s.val) * 2048 + h.val
  omega

/-- After the region the one remaining operation re-shapes the call's output array: the result array is `kernelResult`. -/
theorem tail_eq (c : Dev nD) :
    Pipeline.afterTail₀ cfgs (dats (F := Ideal) m) 0 (V0 m) [hostOps1] c main_v20 = kernelResult m c := by
  have e : Pipeline.afterTail₀ cfgs (dats (F := Ideal) m) 0 (V0 m) [hostOps1] c main_v20
      = (shapeCast S2x2048x2048 (Cert.KernelIdeal.BlockValue.result m c) shapeCasts_S4096x2048_S2x2048x2048 : S2x2048x2048.Idx → EReal) := by
    unfold Pipeline.afterTail₀
    show StableHlo.after hostOps1 _ (Proc.devRef .tc main_v20) = _
    after_results
    rw [(Pipeline.withArrays_arr spec0 launch0.win.arr_inj c _ _ 5).trans (Cert.KernelIdeal.BlockValue.final m c)]
    rfl
  rw [e]
  funext i
  obtain ⟨b, s, h, rfl⟩ : ∃ (b : Fin 2) (s : Fin 2048) (h : Fin 2048), i = ix3 b s h := ⟨i 0, i 1, i 2, eq_ix3 i⟩
  rw [unflatten_apply, result_apply]
  rfl

/-- The kernel program's run, read: the result array at the kernel arrangement of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v20) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.HostValue

end
-- ==== Proof.lean ====
/-
  The certificate's claims for the mixture-of-experts kernel against its dense reference.

  Both idealized programs compute, for token (b, s) and output coordinate h, the sum over the 8 experts of the token's
  combine weight times the expert's gated MLP, silu(x·w1) · (x·w3) contracted with w2.  The reference weights each
  expert's output after the last contraction; the kernel multiplies the weight into the activation before it, contracts
  the 4096 inner coordinates in 8 chunks of 512, and adds the 64 (expert, chunk) pieces of a row block one grid point at
  a time into the block it keeps resident, starting from zero.  Over the extended reals the two arrangements agree when
  every entry is finite — moving the weight across the sums is distributivity, which fails at ±∞ — and that is what the
  precondition gives.  The three frames are the frame runs of the two kernel programs and the reference's run with its
  result dropped; nothing was rewritten when the kernel was idealized, so there is nothing to preserve.
-/
import proofs.«121479_j17446157156565_2_alg».proof.Defs
import proofs.«121479_j17446157156565_2_alg».proof.Proof.Gen.Kernel
import proofs.«121479_j17446157156565_2_alg».proof.Proof.Gen.Kernel.Frame
import proofs.«121479_j17446157156565_2_alg».proof.Proof.Gen.KernelIdeal
import proofs.«121479_j17446157156565_2_alg».proof.Proof.Gen.KernelIdeal.Frame
import proofs.«121479_j17446157156565_2_alg».proof.Proof.Gen.ReferenceIdeal
import proofs.«121479_j17446157156565_2_alg».proof.Proof.Gen.ReferenceIdeal.Run
import proofs.«121479_j17446157156565_2_alg».proof.Proof.Gen.ReferenceIdeal.Read
import proofs.«121479_j17446157156565_2_alg».proof.Proof.Gen.Pre_finite_inputs
import proofs.«121479_j17446157156565_2_alg».proof.Proof.Spec
import proofs.«121479_j17446157156565_2_alg».proof.Proof.Algebra
import proofs.«121479_j17446157156565_2_alg».proof.Proof.Finite
import proofs.«121479_j17446157156565_2_alg».proof.Proof.RefValue
import proofs.«121479_j17446157156565_2_alg».proof.Proof.HostValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with equal results: the kernel's result array is the kernel arrangement of the
    arguments, the reference's the reference arrangement of the same arguments, and the two arrangements are one
    function of finite arguments. -/
theorem algebraic : Cert.algebraic_KernelIdeal_ReferenceIdeal := by
  intro m ρ m' ρ' hpre hagree
  refine ⟨fun c => Cert.KernelIdeal.HostValue.kernelResult m c, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hrw, hw1, hw2, hw3⟩ := Cert.Finite.real_of_pre _ _ _ _ _ _ (hpre c)
  rw [Cert.ReferenceIdeal.Read.val_main_v160_eq, (hagree c).1, (hagree c).2.1, (hagree c).2.2.1, (hagree c).2.2.2.1,
    (hagree c).2.2.2.2.1, (hagree c).2.2.2.2.2]
  funext i
  obtain ⟨b, s, h, rfl⟩ : ∃ (b : Fin 2) (s : Fin 2048) (h : Fin 2048), i = ix3 b s h := ⟨i 0, i 1, i 2, eq_ix3 i⟩
  rw [Cert.RefValue.val_eq]
  exact (Cert.Algebra.kernelV_eq_refV _ _ _ _ _ _ (fun b s j => hx _) (fun b s k => hrw _) (fun e j k => hw1 _)
    (fun e k h => hw2 _) (fun e j k => hw3 _) b s h).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
